-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part4 {F : FTy → Type} [FloatOps F] (main_arg15 : FVec F S256 .f32) (main_arg16 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  main_v78

def fn_part3 {F : FTy → Type} [FloatOps F] (main_arg12 : FVec F S256x256 .f32) (main_arg13 : FVec F S256 .f32) (main_arg14 : FVec F S256x256 .f32) (main_arg15 : FVec F S256 .f32) (main_arg16 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg14
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg15 main_arg16 main_v63 main_v67

def fn_part2 {F : FTy → Type} [FloatOps F] (main_arg8 : FVec F S256 .f32) (main_arg9 : FVec F S256x256 .f32) (main_arg10 : FVec F S256 .f32) (main_arg11 : FVec F S256 .f32) (main_arg12 : FVec F S256x256 .f32) (main_arg13 : FVec F S256 .f32) (main_arg14 : FVec F S256x256 .f32) (main_arg15 : FVec F S256 .f32) (main_arg16 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_v48 main_v49 main_v50

def fn_part1 {F : FTy → Type} [FloatOps F] (main_arg5 : FVec F S256 .f32) (main_arg6 : FVec F S256 .f32) (main_arg7 : FVec F S256x256 .f32) (main_arg8 : FVec F S256 .f32) (main_arg9 : FVec F S256x256 .f32) (main_arg10 : FVec F S256 .f32) (main_arg11 : FVec F S256 .f32) (main_arg12 : FVec F S256x256 .f32) (main_arg13 : FVec F S256 .f32) (main_arg14 : FVec F S256x256 .f32) (main_arg15 : FVec F S256 .f32) (main_arg16 : FVec F S256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : IVec S2x800000 32) (main_arg2 : FVec F S256x128 .f32) (main_arg3 : FVec F S256 .f32) (main_arg4 : FVec F S256x128 .f32) (main_arg5 : FVec F S256 .f32) (main_arg6 : FVec F S256 .f32) (main_arg7 : FVec F S256x256 .f32) (main_arg8 : FVec F S256 .f32) (main_arg9 : FVec F S256x256 .f32) (main_arg10 : FVec F S256 .f32) (main_arg11 : FVec F S256 .f32) (main_arg12 : FVec F S256x256 .f32) (main_arg13 : FVec F S256 .f32) (main_arg14 : FVec F S256x256 .f32) (main_arg15 : FVec F S256 .f32) (main_arg16 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S128x256 : Shape := ⟨2, ![128, 256]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩

abbrev nBuf : Space → Nat
  | .hbm => 145
  | .vmem => 51
  | .smem => 0
  | _ => 0

abbrev hbmTy0_0 (i : Nat) : BufTy := match i % 128 with
  | 0 => ⟨S50000x128, .f32⟩
  | 1 => ⟨S2x800000, .i32⟩
  | 2 => ⟨S256x128, .f32⟩
  | 3 => ⟨S256, .f32⟩
  | 4 => ⟨S256x128, .f32⟩
  | 5 => ⟨S256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256, .f32⟩
  | 12 => ⟨S256x256, .f32⟩
  | 13 => ⟨S256, .f32⟩
  | 14 => ⟨S256x256, .f32⟩
  | 15 => ⟨S256, .f32⟩
  | 16 => ⟨S256, .f32⟩
  | 17 => ⟨S1x800000, .i32⟩
  | 18 => ⟨S800000, .i32⟩
  | 19 => ⟨S1x800000, .i32⟩
  | 20 => ⟨S800000, .i32⟩
  | 21 => ⟨S_, .f32⟩
  | 22 => ⟨S800000, .f32⟩
  | 23 => ⟨S_, .f32⟩
  | 24 => ⟨S50000, .f32⟩
  | 25 => ⟨S800000x1, .i32⟩
  | 26 => ⟨S50000, .f32⟩
  | 27 => ⟨S_, .f32⟩
  | 28 => ⟨S50000, .f32⟩
  | 29 => ⟨S50000, .f32⟩
  | 30 => ⟨S50000x1, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S50000x128, .f32⟩
  | 45 => ⟨S50000x128, .f32⟩
  | 46 => ⟨S128x256, .f32⟩
  | 47 => ⟨S128x256, .f32⟩
  | 48 => ⟨S1x256, .f32⟩
  | 49 => ⟨S50000x256, .f32⟩
  | 50 => ⟨S_, .f32⟩
  | 51 => ⟨S256, .f32⟩
  | 52 => ⟨S_, .f32⟩
  | 53 => ⟨S256, .f32⟩
  | 54 => ⟨S256, .f32⟩
  | 55 => ⟨S1x256, .f32⟩
  | 56 => ⟨S50000x256, .f32⟩
  | 57 => ⟨S50000x256, .f32⟩
  | 58 => ⟨S50000x256, .f32⟩
  | 59 => ⟨S_, .f32⟩
  | 60 => ⟨S256, .f32⟩
  | 61 => ⟨S_, .f32⟩
  | 62 => ⟨S256, .f32⟩
  | 63 => ⟨S256, .f32⟩
  | 64 => ⟨S1x256, .f32⟩
  | 65 => ⟨S1x256, .f32⟩
  | 66 => ⟨S1x256, .f32⟩
  | 67 => ⟨S1x256, .f32⟩
  | 68 => ⟨S50000x256, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x256, .f32⟩
  | 78 => ⟨S_, .f32⟩
  | 79 => ⟨S50000x256, .f32⟩
  | 80 => ⟨S800000x1, .i32⟩
  | 81 => ⟨S50000x256, .f32⟩
  | 82 => ⟨S50000x256, .f32⟩
  | 83 => ⟨S50000x256, .f32⟩
  | 84 => ⟨S256x256, .f32⟩
  | 85 => ⟨S256x256, .f32⟩
  | 86 => ⟨S1x256, .f32⟩
  | 87 => ⟨S50000x256, .f32⟩
  | 88 => ⟨S_, .f32⟩
  | 89 => ⟨S256, .f32⟩
  | 90 => ⟨S_, .f32⟩
  | 91 => ⟨S256, .f32⟩
  | 92 => ⟨S256, .f32⟩
  | 93 => ⟨S1x256, .f32⟩
  | 94 => ⟨S50000x256, .f32⟩
  | 95 => ⟨S50000x256, .f32⟩
  | 96 => ⟨S50000x256, .f32⟩
  | 97 => ⟨S_, .f32⟩
  | 98 => ⟨S256, .f32⟩
  | 99 => ⟨S_, .f32⟩
  | 100 => ⟨S256, .f32⟩
  | 101 => ⟨S256, .f32⟩
  | 102 => ⟨S1x256, .f32⟩
  | 103 => ⟨S1x256, .f32⟩
  | 104 => ⟨S1x256, .f32⟩
  | 105 => ⟨S1x256, .f32⟩
  | 106 => ⟨S50000x256, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x256, .f32⟩
  | 116 => ⟨S_, .f32⟩
  | 117 => ⟨S50000x256, .f32⟩
  | 118 => ⟨S800000x1, .i32⟩
  | 119 => ⟨S50000x256, .f32⟩
  | 120 => ⟨S50000x256, .f32⟩
  | 121 => ⟨S50000x256, .f32⟩
  | 122 => ⟨S256x256, .f32⟩
  | 123 => ⟨S256x256, .f32⟩
  | 124 => ⟨S1x256, .f32⟩
  | 125 => ⟨S50000x256, .f32⟩
  | 126 => ⟨S_, .f32⟩
  | 127 => ⟨S256, .f32⟩
  | _ => ⟨S50000x128, .f32⟩

abbrev hbmTy0_1 (i : Nat) : BufTy := match i % 128 with
  | 0 => ⟨S_, .f32⟩
  | 1 => ⟨S256, .f32⟩
  | 2 => ⟨S256, .f32⟩
  | 3 => ⟨S1x256, .f32⟩
  | 4 => ⟨S50000x256, .f32⟩
  | 5 => ⟨S50000x256, .f32⟩
  | 6 => ⟨S50000x256, .f32⟩
  | 7 => ⟨S_, .f32⟩
  | 8 => ⟨S256, .f32⟩
  | 9 => ⟨S_, .f32⟩
  | 10 => ⟨S256, .f32⟩
  | 11 => ⟨S256, .f32⟩
  | 12 => ⟨S1x256, .f32⟩
  | 13 => ⟨S1x256, .f32⟩
  | 14 => ⟨S1x256, .f32⟩
  | 15 => ⟨S1x256, .f32⟩
  | 16 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S256x256, .f32⟩
  | .local _ .vmem, ⟨22, _⟩ => ⟨S1x256, .f32⟩
  | .local _ .vmem, ⟨23, _⟩ => ⟨S256x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S256x256, .f32⟩
  | .local _ .vmem, ⟨39, _⟩ => ⟨S1x256, .f32⟩
  | .local _ .vmem, ⟨40, _⟩ => ⟨S256x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S1x256, .f32⟩
  | .local _ .vmem, ⟨46, _⟩ => ⟨S1x256, .f32⟩
  | .local _ .vmem, ⟨47, _⟩ => ⟨S1x256, .f32⟩
  | .local _ .vmem, ⟨48, _⟩ => ⟨S1x256, .f32⟩
  | .local _ .vmem, ⟨49, _⟩ => ⟨S2000x256, .f32⟩
  | .local _ .vmem, ⟨50, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_6 : Ref sig .tc := ⟨.hbm, 59, rfl⟩
abbrev main_v34 : Ref sig .tc := ⟨.hbm, 60, rfl⟩
abbrev main_cst_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_8 : Ref sig .tc := ⟨.hbm, 69, rfl⟩
abbrev main_v42 : Ref sig .tc := ⟨.hbm, 70, rfl⟩
abbrev main_v43 : Ref sig .tc := ⟨.hbm, 71, rfl⟩
abbrev main_c_9 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_11 : Ref sig .tc := ⟨.hbm, 88, rfl⟩
abbrev main_v58 : Ref sig .tc := ⟨.hbm, 89, rfl⟩
abbrev main_cst_12 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_13 : Ref sig .tc := ⟨.hbm, 97, rfl⟩
abbrev main_v65 : Ref sig .tc := ⟨.hbm, 98, rfl⟩
abbrev main_cst_14 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_15 : Ref sig .tc := ⟨.hbm, 107, rfl⟩
abbrev main_v73 : Ref sig .tc := ⟨.hbm, 108, rfl⟩
abbrev main_v74 : Ref sig .tc := ⟨.hbm, 109, rfl⟩
abbrev main_c_16 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_17 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_18 : Ref sig .tc := ⟨.hbm, 126, rfl⟩
abbrev main_v89 : Ref sig .tc := ⟨.hbm, 127, rfl⟩
abbrev main_cst_19 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_20 : Ref sig .tc := ⟨.hbm, 135, rfl⟩
abbrev main_v96 : Ref sig .tc := ⟨.hbm, 136, rfl⟩
abbrev main_cst_21 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem5_1 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem5_1 : DmaSem sig := 50

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S256x128_S128x256_1_0 : S256x128.Transposes [1, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  reducesTo_S50000x256_S256_d0 : S50000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .f32 = 32 ∨ (Rect.block (s := S256x256) S256x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S50000x256.size a
  hwx4_5 : ∀ i : grid4.Coords, EltTy.bits .f32 = 32 ∨ (Rect.block (s := S50000x256) S2000x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S50000x256.size a
  hwx5_5 : ∀ i : grid5.Coords, EltTy.bits .f32 = 32 ∨ (Rect.block (s := S50000x256) S2000x256.size (cc5_transform_5 i) (hinb5_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v57) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v84) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v85) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v87) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v86) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88) S2000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v88) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v99) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v100) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v101) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v102) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v103) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S128x256 : Shape := ⟨2, ![128, 256]⟩
abbrev S50000x256 : Shape := ⟨2, ![50000, 256]⟩
abbrev S1x256 : Shape := ⟨2, ![1, 256]⟩
abbrev S800000x256 : Shape := ⟨2, ![800000, 256]⟩

abbrev nBuf : Space → Nat
  | .hbm => 196
  | .vmem => 0
  | .smem => 0
  | _ => 0

abbrev hbmTy0_0 (i : Nat) : BufTy := match i % 128 with
  | 0 => ⟨S50000x128, .f32⟩
  | 1 => ⟨S2x800000, .i32⟩
  | 2 => ⟨S256x128, .f32⟩
  | 3 => ⟨S256, .f32⟩
  | 4 => ⟨S256x128, .f32⟩
  | 5 => ⟨S256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256, .f32⟩
  | 12 => ⟨S256x256, .f32⟩
  | 13 => ⟨S256, .f32⟩
  | 14 => ⟨S256x256, .f32⟩
  | 15 => ⟨S256, .f32⟩
  | 16 => ⟨S256, .f32⟩
  | 17 => ⟨S1x800000, .i32⟩
  | 18 => ⟨S800000, .i32⟩
  | 19 => ⟨S1x800000, .i32⟩
  | 20 => ⟨S800000, .i32⟩
  | 21 => ⟨S_, .f32⟩
  | 22 => ⟨S800000, .f32⟩
  | 23 => ⟨S_, .f32⟩
  | 24 => ⟨S50000, .f32⟩
  | 25 => ⟨S800000x1, .i32⟩
  | 26 => ⟨S50000, .f32⟩
  | 27 => ⟨S_, .f32⟩
  | 28 => ⟨S50000, .f32⟩
  | 29 => ⟨S50000, .f32⟩
  | 30 => ⟨S50000x1, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S50000x128, .f32⟩
  | 45 => ⟨S50000x128, .f32⟩
  | 46 => ⟨S128x256, .f32⟩
  | 47 => ⟨S50000x256, .f32⟩
  | 48 => ⟨S1x256, .f32⟩
  | 49 => ⟨S50000x256, .f32⟩
  | 50 => ⟨S50000x256, .f32⟩
  | 51 => ⟨S128x256, .f32⟩
  | 52 => ⟨S50000x256, .f32⟩
  | 53 => ⟨S50000x256, .f32⟩
  | 54 => ⟨S_, .f32⟩
  | 55 => ⟨S256, .f32⟩
  | 56 => ⟨S_, .f32⟩
  | 57 => ⟨S256, .f32⟩
  | 58 => ⟨S256, .f32⟩
  | 59 => ⟨S1x256, .f32⟩
  | 60 => ⟨S50000x256, .f32⟩
  | 61 => ⟨S50000x256, .f32⟩
  | 62 => ⟨S50000x256, .f32⟩
  | 63 => ⟨S_, .f32⟩
  | 64 => ⟨S256, .f32⟩
  | 65 => ⟨S_, .f32⟩
  | 66 => ⟨S256, .f32⟩
  | 67 => ⟨S256, .f32⟩
  | 68 => ⟨S1x256, .f32⟩
  | 69 => ⟨S50000x256, .f32⟩
  | 70 => ⟨S50000x256, .f32⟩
  | 71 => ⟨S_, .f32⟩
  | 72 => ⟨S256, .f32⟩
  | 73 => ⟨S256, .f32⟩
  | 74 => ⟨S256, .f32⟩
  | 75 => ⟨S1x256, .f32⟩
  | 76 => ⟨S50000x256, .f32⟩
  | 77 => ⟨S50000x256, .f32⟩
  | 78 => ⟨S1x256, .f32⟩
  | 79 => ⟨S50000x256, .f32⟩
  | 80 => ⟨S50000x256, .f32⟩
  | 81 => ⟨S1x256, .f32⟩
  | 82 => ⟨S50000x256, .f32⟩
  | 83 => ⟨S50000x256, .f32⟩
  | 84 => ⟨S_, .f32⟩
  | 85 => ⟨S50000x256, .f32⟩
  | 86 => ⟨S50000x256, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x256, .f32⟩
  | 96 => ⟨S_, .f32⟩
  | 97 => ⟨S50000x256, .f32⟩
  | 98 => ⟨S800000x1, .i32⟩
  | 99 => ⟨S50000x256, .f32⟩
  | 100 => ⟨S50000x256, .f32⟩
  | 101 => ⟨S50000x256, .f32⟩
  | 102 => ⟨S256x256, .f32⟩
  | 103 => ⟨S50000x256, .f32⟩
  | 104 => ⟨S1x256, .f32⟩
  | 105 => ⟨S50000x256, .f32⟩
  | 106 => ⟨S50000x256, .f32⟩
  | 107 => ⟨S256x256, .f32⟩
  | 108 => ⟨S50000x256, .f32⟩
  | 109 => ⟨S50000x256, .f32⟩
  | 110 => ⟨S_, .f32⟩
  | 111 => ⟨S256, .f32⟩
  | 112 => ⟨S_, .f32⟩
  | 113 => ⟨S256, .f32⟩
  | 114 => ⟨S256, .f32⟩
  | 115 => ⟨S1x256, .f32⟩
  | 116 => ⟨S50000x256, .f32⟩
  | 117 => ⟨S50000x256, .f32⟩
  | 118 => ⟨S50000x256, .f32⟩
  | 119 => ⟨S_, .f32⟩
  | 120 => ⟨S256, .f32⟩
  | 121 => ⟨S_, .f32⟩
  | 122 => ⟨S256, .f32⟩
  | 123 => ⟨S256, .f32⟩
  | 124 => ⟨S1x256, .f32⟩
  | 125 => ⟨S50000x256, .f32⟩
  | 126 => ⟨S50000x256, .f32⟩
  | 127 => ⟨S_, .f32⟩
  | _ => ⟨S50000x128, .f32⟩

abbrev hbmTy0_1 (i : Nat) : BufTy := match i % 128 with
  | 0 => ⟨S256, .f32⟩
  | 1 => ⟨S256, .f32⟩
  | 2 => ⟨S256, .f32⟩
  | 3 => ⟨S1x256, .f32⟩
  | 4 => ⟨S50000x256, .f32⟩
  | 5 => ⟨S50000x256, .f32⟩
  | 6 => ⟨S1x256, .f32⟩
  | 7 => ⟨S50000x256, .f32⟩
  | 8 => ⟨S50000x256, .f32⟩
  | 9 => ⟨S1x256, .f32⟩
  | 10 => ⟨S50000x256, .f32⟩
  | 11 => ⟨S50000x256, .f32⟩
  | 12 => ⟨S_, .f32⟩
  | 13 => ⟨S50000x256, .f32⟩
  | 14 => ⟨S50000x256, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x256, .f32⟩
  | 24 => ⟨S_, .f32⟩
  | 25 => ⟨S50000x256, .f32⟩
  | 26 => ⟨S800000x1, .i32⟩
  | 27 => ⟨S50000x256, .f32⟩
  | 28 => ⟨S50000x256, .f32⟩
  | 29 => ⟨S50000x256, .f32⟩
  | 30 => ⟨S256x256, .f32⟩
  | 31 => ⟨S50000x256, .f32⟩
  | 32 => ⟨S1x256, .f32⟩
  | 33 => ⟨S50000x256, .f32⟩
  | 34 => ⟨S50000x256, .f32⟩
  | 35 => ⟨S256x256, .f32⟩
  | 36 => ⟨S50000x256, .f32⟩
  | 37 => ⟨S50000x256, .f32⟩
  | 38 => ⟨S_, .f32⟩
  | 39 => ⟨S256, .f32⟩
  | 40 => ⟨S_, .f32⟩
  | 41 => ⟨S256, .f32⟩
  | 42 => ⟨S256, .f32⟩
  | 43 => ⟨S1x256, .f32⟩
  | 44 => ⟨S50000x256, .f32⟩
  | 45 => ⟨S50000x256, .f32⟩
  | 46 => ⟨S50000x256, .f32⟩
  | 47 => ⟨S_, .f32⟩
  | 48 => ⟨S256, .f32⟩
  | 49 => ⟨S_, .f32⟩
  | 50 => ⟨S256, .f32⟩
  | 51 => ⟨S256, .f32⟩
  | 52 => ⟨S1x256, .f32⟩
  | 53 => ⟨S50000x256, .f32⟩
  | 54 => ⟨S50000x256, .f32⟩
  | 55 => ⟨S_, .f32⟩
  | 56 => ⟨S256, .f32⟩
  | 57 => ⟨S256, .f32⟩
  | 58 => ⟨S256, .f32⟩
  | 59 => ⟨S1x256, .f32⟩
  | 60 => ⟨S50000x256, .f32⟩
  | 61 => ⟨S50000x256, .f32⟩
  | 62 => ⟨S1x256, .f32⟩
  | 63 => ⟨S50000x256, .f32⟩
  | 64 => ⟨S50000x256, .f32⟩
  | 65 => ⟨S1x256, .f32⟩
  | 66 => ⟨S50000x256, .f32⟩
  | 67 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call0_cst : Ref sig .tc := ⟨.hbm, 84, rfl⟩
abbrev main_call0_v0 : Ref sig .tc := ⟨.hbm, 85, rfl⟩
abbrev main_v56 : Ref sig .tc := ⟨.hbm, 86, rfl⟩
abbrev main_c_9 : Ref sig .tc := ⟨.hbm, 87, rfl⟩
abbrev main_v57 : Ref sig .tc := ⟨.hbm, 88, rfl⟩
abbrev main_v58 : Ref sig .tc := ⟨.hbm, 89, rfl⟩
abbrev main_c_10 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_11 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_12 : Ref sig .tc := ⟨.hbm, 110, rfl⟩
abbrev main_v77 : Ref sig .tc := ⟨.hbm, 111, rfl⟩
abbrev main_cst_13 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_14 : Ref sig .tc := ⟨.hbm, 119, rfl⟩
abbrev main_v84 : Ref sig .tc := ⟨.hbm, 120, rfl⟩
abbrev main_cst_15 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_16 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_call1_cst : Ref sig .tc := ⟨.hbm, 140, rfl⟩
abbrev main_call1_v0 : Ref sig .tc := ⟨.hbm, 141, rfl⟩
abbrev main_v102 : Ref sig .tc := ⟨.hbm, 142, rfl⟩
abbrev main_c_17 : Ref sig .tc := ⟨.hbm, 143, rfl⟩
abbrev main_v103 : Ref sig .tc := ⟨.hbm, 144, rfl⟩
abbrev main_v104 : Ref sig .tc := ⟨.hbm, 145, rfl⟩
abbrev main_c_18 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_19 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_20 : Ref sig .tc := ⟨.hbm, 166, rfl⟩
abbrev main_v123 : Ref sig .tc := ⟨.hbm, 167, rfl⟩
abbrev main_cst_21 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_cst_22 : Ref sig .tc := ⟨.hbm, 175, rfl⟩
abbrev main_v130 : Ref sig .tc := ⟨.hbm, 176, rfl⟩
abbrev main_cst_23 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_cst_24 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.HostFns.lean ====
/-
  The host-side stages both programs share, as named functions of their operands (spelt with the operations the
  programs print; none of them is opened in this certificate — they are matched as they stand):

  * `srcOf` / `dstOf`: the two rows of the edge list, the source and the destination node of each of the 800000 edges;
  * `degOf`: each node's in-degree — a scatter-add of ones over the destinations — floored at one, as a column;
  * `agg`: the mean over a node's incoming edges of the source nodes' feature rows — gather the sources' rows (a
    negative index wrapped once), scatter-add them at the destinations, divide by the degree column;
  * `colMean`, `colVar`: a [50000, 256] array's column means, and the column means of the squared deviations;
  * `tr`: a weight matrix transposed; `asRow`: a length-256 vector as a [1, 256] row.
-/
import proofs.«113280_j64192581206427_1_alg».proof.KernelIdeal

noncomputable section

namespace Cert.KernelIdeal.Val

open Cert.KernelIdeal Idealize.ShloMosaic Idealize.ShloMosaic.TcCoe Idealize.SL.Sem

/-- A host array: the contents of a buffer of shape `S` and element type `e`. -/
abbrev Arr (F : FTy → Type) (S : Shape) (e : EltTy) : Type := (⟨S, e⟩ : BufTy).Contents (Elt F)

variable {F : FTy → Type} [FloatOps F] [Cert.KernelIdeal.Facts]
open Cert.KernelIdeal.Facts₀ Cert.KernelIdeal.Facts

def srcOf (ei : Arr F S2x800000 .i32) : Arr F S800000 .i32 :=
  shapeCast _ (extractStridedSlice S1x800000 ![0, 0] ei slices_S2x800000_S1x800000_0_0) shapeCasts_S1x800000_S800000

def dstOf (ei : Arr F S2x800000 .i32) : Arr F S800000 .i32 :=
  shapeCast _ (extractStridedSlice S1x800000 ![1, 0] ei slices_S2x800000_S1x800000_1_0) shapeCasts_S1x800000_S800000

def degOf (dst : Arr F S800000 .i32) : Arr F S50000x1 .f32 :=
  broadcastInDim S50000x1 ![0] bcast_S50000_S50000x1_0
    (maximumf
      (Host.scatterAdd scatter_S50000_S800000x1_S800000_n_0_0_1
        (broadcastInDim S50000 ![] bcast_S_S50000 (constant S_ .f32 0x00000000#32))
        (broadcastInDim S800000x1 ![0] bcast_S800000_S800000x1_0 dst)
        (broadcastInDim S800000 ![] bcast_S_S800000 (constant S_ .f32 0x3F800000#32)))
      (broadcastInDim S50000 ![] bcast_S_S50000 (constant S_ .f32 0x3F800000#32)))

/-- The gather's index column: a negative source index wrapped by the number of nodes. -/
def srcIdx (src : Arr F S800000 .i32) : Arr F S800000x1 .i32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

def agg128 (h : Arr F S50000x128 .f32) (src dst : Arr F S800000 .i32) (deg : Arr F S50000x1 .f32) : Arr F S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 h (srcIdx src)))
    (broadcastInDim S50000x128 ![0, 1] bcast_S50000x1_S50000x128_0_1 deg)

def agg256 (h : Arr F S50000x256 .f32) (src dst : Arr F S800000 .i32) (deg : Arr F S50000x1 .f32) : Arr F S50000x256 .f32 :=
  Host.divf
    (Host.scatterAdd scatter_S50000x256_S800000x1_S800000x256_1_0_0_1
      (broadcastInDim S50000x256 ![] bcast_S_S50000x256 (constant S_ .f32 0x00000000#32))
      (broadcastInDim S800000x1 ![0] bcast_S800000_S800000x1_0 dst)
      (Host.gather gather_S50000x256_S800000x1_S800000x256_1_0_n_n_0_1_1256 h (srcIdx src)))
    (broadcastInDim S50000x256 ![0, 1] bcast_S50000x1_S50000x256_0_1 deg)

def colMean (y : Arr F S50000x256 .f32) : Arr F S256 .f32 :=
  Host.divf (Host.reduceAdd y (constant S_ .f32 0x00000000#32) reducesTo_S50000x256_S256_d0 h_S_)
    (broadcastInDim S256 ![] bcast_S_S256 (constant S_ .f32 0x47435000#32))

/-- A length-256 vector down the 50000 rows. -/
def down (v : Arr F S256 .f32) : Arr F S50000x256 .f32 :=
  broadcastInDim S50000x256 ![0, 1] bcast_S1x256_S50000x256_0_1 (broadcastInDim S1x256 ![1] bcast_S256_S1x256_1 v)

def colVar (y : Arr F S50000x256 .f32) (mu : Arr F S256 .f32) : Arr F S256 .f32 :=
  Host.divf (Host.reduceAdd (mulf (subf y (down mu)) (subf y (down mu))) (constant S_ .f32 0x00000000#32) reducesTo_S50000x256_S256_d0 h_S_)
    (broadcastInDim S256 ![] bcast_S_S256 (constant S_ .f32 0x47435000#32))

def tr128 (w : Arr F S256x128 .f32) : Arr F S128x256 .f32 := transpose S128x256 [1, 0] w transposes_S256x128_S128x256_1_0
def tr256 (w : Arr F S256x256 .f32) : Arr F S256x256 .f32 := transpose S256x256 [1, 0] w transposes_S256x256_S256x256_1_0
def asRow (v : Arr F S256 .f32) : Arr F S1x256 .f32 := shapeCast _ v shapeCasts_S256_S1x256

end Cert.KernelIdeal.Val

end
-- ==== Proof.Spec.lean ====
/-
  The mathematics of one layer, as whole-array functions over the extended reals, index by index.

  A layer first aggregates neighbour features (host operations both programs share, not opened here), then

  * the linear map: with a the aggregated features and x the layer's input, both [50000, K], and the two weight
    matrices already transposed to [K, 256],
        lin a x wl wr bl (r, q) = (Σ_k a (r, k) · wl (k, q) + Σ_k x (r, k) · wr (k, q)) + bl (0, q);
  * the normalisation over the 50000 rows, column by column, from a column's mean and variance:
        norm h mu var g b (r, q) = ((h (r, q) − mu (0, q)) · rsqrt (var (0, q) + ε)) · g (0, q) + b (0, q),
    followed in the first two layers by the maximum with zero.
-/
import Idealize.ShloMosaic.Lib.ValueIdx
import Idealize.ShloMosaic.PureOps.Ideal

noncomputable section

namespace Cert.Spec

open Idealize.ShloMosaic Idealize.ShloMosaic.ValueIdx

/-- The normalisation of one entry: centre, scale by the reciprocal root of the variance plus ε, then the affine map. -/
def norm1 (h mu var g b : EReal) : EReal :=
  ((h - mu) * Ideal.rsqrt (var + Ideal.ofBits .f32 0x3727C5AC#32)) * g + b

/-- One entry of the linear map, row r and column q, contracted over K columns. -/
def lin1 {K : Nat} (a x : (⟨2, ![50000, K]⟩ : Shape).Idx → EReal) (wl wr : (⟨2, ![K, 256]⟩ : Shape).Idx → EReal)
    (bl : (⟨2, ![1, 256]⟩ : Shape).Idx → EReal) (r : Fin 50000) (q : Fin 256) : EReal :=
  (∑ k : Fin K, a (ix2 r k) * wl (ix2 k q) + ∑ k : Fin K, x (ix2 r k) * wr (ix2 k q)) + bl (ix2 0 q)

/-- The linear map as a whole [50000, 256] array. -/
def lin {K : Nat} (a x : (⟨2, ![50000, K]⟩ : Shape).Idx → EReal) (wl wr : (⟨2, ![K, 256]⟩ : Shape).Idx → EReal)
    (bl : (⟨2, ![1, 256]⟩ : Shape).Idx → EReal) : (⟨2, ![50000, 256]⟩ : Shape).Idx → EReal :=
  fun i => lin1 a x wl wr bl ⟨(i 0).val, idx2_lt0 i⟩ ⟨(i 1).val, idx2_lt1 i⟩

/-- The normalisation as a whole array, the statistics and the affine parameters as [1, 256] rows. -/
def norm (h : (⟨2, ![50000, 256]⟩ : Shape).Idx → EReal) (mu var g b : (⟨2, ![1, 256]⟩ : Shape).Idx → EReal) :
    (⟨2, ![50000, 256]⟩ : Shape).Idx → EReal :=
  fun i => norm1 (h i) (mu (ix2 0 ⟨(i 1).val, idx2_lt1 i⟩)) (var (ix2 0 ⟨(i 1).val, idx2_lt1 i⟩))
    (g (ix2 0 ⟨(i 1).val, idx2_lt1 i⟩)) (b (ix2 0 ⟨(i 1).val, idx2_lt1 i⟩))

/-- The normalisation followed by the maximum with zero. -/
def normRelu (h : (⟨2, ![50000, 256]⟩ : Shape).Idx → EReal) (mu var g b : (⟨2, ![1, 256]⟩ : Shape).Idx → EReal) :
    (⟨2, ![50000, 256]⟩ : Shape).Idx → EReal :=
  fun i => max (norm h mu var g b i) (Ideal.ofBits .f32 0x00000000#32)

end Cert.Spec

end
-- ==== Proof.Payload.lean ====
/-
  The three kernel bodies' arithmetic, read at one index of the output block, over the extended reals.

  * the linear body (blocks of 2000 rows; K = 128 in the first layer, K = 256 in the other two):
      out (p, q) = (Σ_k a (p, k) · wl (k, q) + Σ_k x (p, k) · wr (k, q)) + bl (0, q)
    — the two products into a zero accumulator are plain sums over the contracted axis, the roundings to
    bf16 on the way into the products are the identity on the extended reals, the bias row is broadcast
    down the rows;
  * the normalisation body:
      out (p, q) = ((h (p, q) − mu (0, q)) · rsqrt (var (0, q) + ε)) · g (0, q) + b (0, q)
    followed, in the first two layers, by the maximum with zero.
-/
import proofs.«113280_j64192581206427_1_alg».proof.Proof.Gen.KernelIdeal.Skeleton
import proofs.«113280_j64192581206427_1_alg».proof.Proof.Spec
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.TcCoe Idealize.SL.Sem Cert.KernelIdeal Cert.KernelIdeal.Gen
open Idealize.ShloMosaic.ValueIdx Cert.Spec

/-! ## The products -/

local notation "D128" => dot_S2000x128_S128x256_S2000x256_1_0_0_1_n_n
local notation "D256" => dot_S2000x256_S256x256_S2000x256_1_0_0_1_n_n

theorem d128_l0 (i : S2000x256.Idx) (q : (D128).contr.Idx) : ((D128).lhsIdx i q 0).val = (i 0).val := by
  unfold DotDims.lhsIdx
  rw [dif_neg (show ¬(0 : Fin S2000x128.rank) ∈ (D128).lhsBatch by decide), dif_pos (show (0 : Fin S2000x128.rank) ∈ (D128).lhsNonContracting by decide)]
  rfl
theorem d128_l1 (i : S2000x256.Idx) (q : (D128).contr.Idx) : ((D128).lhsIdx i q 1).val = (q ⟨0, by decide⟩).val :=
  (D128).lhsIdx_val_of_single rfl i q
theorem d128_r0 (i : S2000x256.Idx) (q : (D128).contr.Idx) : ((D128).rhsIdx i q 0).val = (q ⟨0, by decide⟩).val :=
  (D128).rhsIdx_val_of_single rfl i q
theorem d128_r1 (i : S2000x256.Idx) (q : (D128).contr.Idx) : ((D128).rhsIdx i q 1).val = (i 1).val := by
  unfold DotDims.rhsIdx
  rw [dif_neg (show ¬(1 : Fin S128x256.rank) ∈ (D128).rhsBatch by decide), dif_pos (show (1 : Fin S128x256.rank) ∈ (D128).rhsNonContracting by decide)]
  rfl

/-- A [2000, 128] block times a [128, 256] matrix into the zero accumulator, at (p, q): the sum over the 128 columns. -/
theorem mm128_apply {φ₁ φ₂ : FTy} (l : FVec Ideal S2000x128 φ₁) (r : FVec Ideal S128x256 φ₂) (p : Fin 2000) (q : Fin 256) :
    matmul D128 none l r (constant S2000x256 .f32 0x00000000#32) (ix2 p q) = ∑ k : Fin 128, l (ix2 p k) * r (ix2 k q) := by
  show FloatOps.matmul D128 none l r (constant S2000x256 .f32 0x00000000#32) (ix2 p q) = _
  rw [Ideal.matmul_constant_zero_apply, ← Equiv.sum_comp (ValueIdx.contrEquiv1 D128 128 rfl rfl).symm]
  refine Finset.sum_congr rfl fun k _ => ?_
  have hk := ValueIdx.contrEquiv1_symm_val D128 128 rfl rfl k
  have el : (D128).lhsIdx (ix2 p q) ((ValueIdx.contrEquiv1 D128 128 rfl rfl).symm k) = ix2 p k := funext fun a => Fin.ext (by
    match a with
    | ⟨0, _⟩ => exact d128_l0 _ _
    | ⟨1, _⟩ => exact (d128_l1 _ _).trans hk)
  have er : (D128).rhsIdx (ix2 p q) ((ValueIdx.contrEquiv1 D128 128 rfl rfl).symm k) = ix2 k q := funext fun a => Fin.ext (by
    match a with
    | ⟨0, _⟩ => exact (d128_r0 _ _).trans hk
    | ⟨1, _⟩ => exact d128_r1 _ _)
  rw [el, er]

theorem d256_l0 (i : S2000x256.Idx) (q : (D256).contr.Idx) : ((D256).lhsIdx i q 0).val = (i 0).val := by
  unfold DotDims.lhsIdx
  rw [dif_neg (show ¬(0 : Fin S2000x256.rank) ∈ (D256).lhsBatch by decide), dif_pos (show (0 : Fin S2000x256.rank) ∈ (D256).lhsNonContracting by decide)]
  rfl
theorem d256_l1 (i : S2000x256.Idx) (q : (D256).contr.Idx) : ((D256).lhsIdx i q 1).val = (q ⟨0, by decide⟩).val :=
  (D256).lhsIdx_val_of_single rfl i q
theorem d256_r0 (i : S2000x256.Idx) (q : (D256).contr.Idx) : ((D256).rhsIdx i q 0).val = (q ⟨0, by decide⟩).val :=
  (D256).rhsIdx_val_of_single rfl i q
theorem d256_r1 (i : S2000x256.Idx) (q : (D256).contr.Idx) : ((D256).rhsIdx i q 1).val = (i 1).val := by
  unfold DotDims.rhsIdx
  rw [dif_neg (show ¬(1 : Fin S256x256.rank) ∈ (D256).rhsBatch by decide), dif_pos (show (1 : Fin S256x256.rank) ∈ (D256).rhsNonContracting by decide)]
  rfl

/-- A [2000, 256] block times a [256, 256] matrix into the zero accumulator, at (p, q): the sum over the 256 columns. -/
theorem mm256_apply {φ₁ φ₂ : FTy} (l : FVec Ideal S2000x256 φ₁) (r : FVec Ideal S256x256 φ₂) (p : Fin 2000) (q : Fin 256) :
    matmul D256 none l r (constant S2000x256 .f32 0x00000000#32) (ix2 p q) = ∑ k : Fin 256, l (ix2 p k) * r (ix2 k q) := by
  show FloatOps.matmul D256 none l r (constant S2000x256 .f32 0x00000000#32) (ix2 p q) = _
  rw [Ideal.matmul_constant_zero_apply, ← Equiv.sum_comp (ValueIdx.contrEquiv1 D256 256 rfl rfl).symm]
  refine Finset.sum_congr rfl fun k _ => ?_
  have hk := ValueIdx.contrEquiv1_symm_val D256 256 rfl rfl k
  have el : (D256).lhsIdx (ix2 p q) ((ValueIdx.contrEquiv1 D256 256 rfl rfl).symm k) = ix2 p k := funext fun a => Fin.ext (by
    match a with
    | ⟨0, _⟩ => exact d256_l0 _ _
    | ⟨1, _⟩ => exact (d256_l1 _ _).trans hk)
  have er : (D256).rhsIdx (ix2 p q) ((ValueIdx.contrEquiv1 D256 256 rfl rfl).symm k) = ix2 k q := funext fun a => Fin.ext (by
    match a with
    | ⟨0, _⟩ => exact (d256_r0 _ _).trans hk
    | ⟨1, _⟩ => exact d256_r1 _ _)
  rw [el, er]

/-! ## A row broadcast down the rows of a block -/

/-- A [1, 256] row broadcast to [2000, 256], at (p, q), is the row at (0, q). -/
theorem rowBcast_apply {α : Type} (v : S1x256.Idx → α) (p : Fin 2000) (q : Fin 256) :
    broadcastTo S2000x256 v broadcasts_S1x256_S2000x256 (ix2 p q) = v (ix2 0 q) :=
  broadcastTo_apply v broadcasts_S1x256_S2000x256 (ix2 p q) (ix2 0 q) (fun a => by
    match a with
    | ⟨0, _⟩ => rfl
    | ⟨1, _⟩ => rfl)

/-! ## The linear bodies -/

/-- The first layer's linear body at (p, q). -/
theorem lin128_apply (a x : Vec Ideal S2000x128 .f32) (wl wr : Vec Ideal S128x256 .f32) (bl : Vec Ideal S1x256 .f32)
    (p : Fin 2000) (q : Fin 256) :
    k0_pay1 (F := Ideal) a x wl wr bl (ix2 p q)
      = (∑ k : Fin 128, a (ix2 p k) * wl (ix2 k q) + ∑ k : Fin 128, x (ix2 p k) * wr (ix2 k q)) + bl (ix2 0 q) := by
  unfold k0_pay1
  simp only [shapeCast_self]
  show (matmul (F := Ideal) D128 none _ _ _ (ix2 p q) + matmul (F := Ideal) D128 none _ _ _ (ix2 p q)) + broadcastTo S2000x256 bl broadcasts_S1x256_S2000x256 (ix2 p q) = _
  rw [mm128_apply, mm128_apply, rowBcast_apply]
  rfl

/-- The second and third layers' linear body at (p, q). -/
theorem lin256_apply (a x : Vec Ideal S2000x256 .f32) (wl wr : Vec Ideal S256x256 .f32) (bl : Vec Ideal S1x256 .f32)
    (p : Fin 2000) (q : Fin 256) :
    k2_pay1 (F := Ideal) a x wl wr bl (ix2 p q)
      = (∑ k : Fin 256, a (ix2 p k) * wl (ix2 k q) + ∑ k : Fin 256, x (ix2 p k) * wr (ix2 k q)) + bl (ix2 0 q) := by
  unfold k2_pay1
  simp only [shapeCast_self]
  show (matmul (F := Ideal) D256 none _ _ _ (ix2 p q) + matmul (F := Ideal) D256 none _ _ _ (ix2 p q)) + broadcastTo S2000x256 bl broadcasts_S1x256_S2000x256 (ix2 p q) = _
  rw [mm256_apply, mm256_apply, rowBcast_apply]
  rfl

theorem lin256'_apply (a x : Vec Ideal S2000x256 .f32) (wl wr : Vec Ideal S256x256 .f32) (bl : Vec Ideal S1x256 .f32)
    (p : Fin 2000) (q : Fin 256) :
    k4_pay1 (F := Ideal) a x wl wr bl (ix2 p q)
      = (∑ k : Fin 256, a (ix2 p k) * wl (ix2 k q) + ∑ k : Fin 256, x (ix2 p k) * wr (ix2 k q)) + bl (ix2 0 q) :=
  lin256_apply a x wl wr bl p q

/-! ## The normalisation bodies -/

/-- The first two layers' normalisation body at (p, q): the normalised entry, or zero if that is larger. -/
theorem bnRelu_apply (h : Vec Ideal S2000x256 .f32) (var mu g b : Vec Ideal S1x256 .f32) (p : Fin 2000) (q : Fin 256) :
    k1_pay1 (F := Ideal) h var mu g b (ix2 p q)
      = max (norm1 (h (ix2 p q)) (mu (ix2 0 q)) (var (ix2 0 q)) (g (ix2 0 q)) (b (ix2 0 q))) (Ideal.ofBits .f32 0x00000000#32) := by
  unfold k1_pay1 norm1
  simp only [shapeCast_self]
  show max (((h (ix2 p q) - broadcastTo S2000x256 mu broadcasts_S1x256_S2000x256 (ix2 p q))
      * broadcastTo S2000x256 (rsqrt (F := Ideal) (addf var (broadcast S1x256 (Scalar.ofBits (F := Ideal) .f32 0x3727C5AC#32)))) broadcasts_S1x256_S2000x256 (ix2 p q))
      * broadcastTo S2000x256 g broadcasts_S1x256_S2000x256 (ix2 p q)
      + broadcastTo S2000x256 b broadcasts_S1x256_S2000x256 (ix2 p q)) _ = _
  rw [rowBcast_apply, rowBcast_apply, rowBcast_apply, rowBcast_apply]
  rfl

theorem bnRelu'_apply (h : Vec Ideal S2000x256 .f32) (var mu g b : Vec Ideal S1x256 .f32) (p : Fin 2000) (q : Fin 256) :
    k3_pay1 (F := Ideal) h var mu g b (ix2 p q)
      = max (norm1 (h (ix2 p q)) (mu (ix2 0 q)) (var (ix2 0 q)) (g (ix2 0 q)) (b (ix2 0 q))) (Ideal.ofBits .f32 0x00000000#32) :=
  bnRelu_apply h var mu g b p q

/-- The last layer's normalisation body at (p, q): the normalised entry. -/
theorem bn_apply (h : Vec Ideal S2000x256 .f32) (var mu g b : Vec Ideal S1x256 .f32) (p : Fin 2000) (q : Fin 256) :
    k5_pay1 (F := Ideal) h var mu g b (ix2 p q)
      = norm1 (h (ix2 p q)) (mu (ix2 0 q)) (var (ix2 0 q)) (g (ix2 0 q)) (b (ix2 0 q)) := by
  unfold k5_pay1 norm1
  simp only [shapeCast_self]
  show (((h (ix2 p q) - broadcastTo S2000x256 mu broadcasts_S1x256_S2000x256 (ix2 p q))
      * broadcastTo S2000x256 (rsqrt (F := Ideal) (addf var (broadcast S1x256 (Scalar.ofBits (F := Ideal) .f32 0x3727C5AC#32)))) broadcasts_S1x256_S2000x256 (ix2 p q))
      * broadcastTo S2000x256 g broadcasts_S1x256_S2000x256 (ix2 p q)
      + broadcastTo S2000x256 b broadcasts_S1x256_S2000x256 (ix2 p q)) = _
  rw [rowBcast_apply, rowBcast_apply, rowBcast_apply, rowBcast_apply]
  rfl

end Cert.KernelIdeal.Body

end
-- ==== Proof.Region0.lean ====
/-
  The first region (the first layer's linear map), as one whole-array function of the arrays the region finds.

  The region walks 25 grid points; point t fetches rows 2000·t … 2000·t + 1999 of the aggregated features and of the
  layer's input, the two [128, 256] weight matrices and the bias row whole, and writes back rows 2000·t … 2000·t + 1999
  of the result.  So the block point t writes back is the restriction to those rows of ONE function of the whole
  arrays, `Spec.lin`; the 25 row blocks cover the 50000 rows; hence the result array after the region is `Spec.lin` of
  the arrays as the region finds them.
-/
import proofs.«113280_j64192581206427_1_alg».proof.Proof.Gen.KernelIdeal.Frame
import proofs.«113280_j64192581206427_1_alg».proof.Proof.Payload

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the resident ones at (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 25 :=
  (by decide +kernel : ∀ t : Fin grid0.N, _)

/-- Row p of point t's block is row 2000·t + p of the array. -/
abbrev row (t : Nat) (ht : t < 25) (p : Fin 2000) : Fin 50000 := ⟨t * 2000 + p.val, by have := p.isLt; omega⟩

theorem blk0_0 (c : Dev nD) (t : Fin cfg0.N) (ht : t.val < 25) (p : Fin 2000) (k : Fin 128) :
    (iblk0 V c 0 t : Vec Ideal S2000x128 .f32) (ix2 p k) = (V c main_v22 : S50000x128.Idx → EReal) (ix2 (row t.val ht p) k) := by
  obtain ⟨e0, e1, -⟩ := idx0 t
  unfold iblk0
  rw [View.read_apply]
  show (V c main_v22 : S50000x128.Idx → EReal) _ = _
  refine congrArg (V c main_v22 : S50000x128.Idx → EReal) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

theorem blk0_1 (c : Dev nD) (t : Fin cfg0.N) (ht : t.val < 25) (p : Fin 2000) (k : Fin 128) :
    (iblk0 V c 1 t : Vec Ideal S2000x128 .f32) (ix2 p k) = (V c main_arg0 : S50000x128.Idx → EReal) (ix2 (row t.val ht p) k) := by
  obtain ⟨-, -, e0, e1, -⟩ := idx0 t
  unfold iblk0
  rw [View.read_apply]
  show (V c main_arg0 : S50000x128.Idx → EReal) _ = _
  refine congrArg (V c main_arg0 : S50000x128.Idx → EReal) (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

/-- A resident window's block is its whole array, at every point. -/
theorem blk0_2 (c : Dev nD) (t : Fin cfg0.N) : (iblk0 V c 2 t : Vec Ideal S128x256 .f32) = (V c main_v23 : S128x256.Idx → EReal) := by
  obtain ⟨-, -, -, -, e0, e1, -⟩ := idx0 t
  funext y
  unfold iblk0
  rw [View.read_apply]
  show (V c main_v23 : S128x256.Idx → EReal) _ = _
  refine congrArg (V c main_v23 : S128x256.Idx → EReal) (funext fun a => Fin.ext ?_)
  match a with
  | ⟨0, _⟩ => show win0_2.index t (0 : Fin 2) * 128 + 1 * (y 0).val = (y 0).val; rw [e0]; omega
  | ⟨1, _⟩ => show win0_2.index t (1 : Fin 2) * 256 + 1 * (y 1).val = (y 1).val; rw [e1]; omega

theorem blk0_3 (c : Dev nD) (t : Fin cfg0.N) : (iblk0 V c 3 t : Vec Ideal S1x256 .f32) = (V c main_v25 : S1x256.Idx → EReal) := by
  obtain ⟨-, -, -, -, -, -, e0, e1, -⟩ := idx0 t
  funext y
  unfold iblk0
  rw [View.read_apply]
  show (V c main_v25 : S1x256.Idx → EReal) _ = _
  refine congrArg (V c main_v25 : S1x256.Idx → EReal) (funext fun a => Fin.ext ?_)
  match a with
  | ⟨0, _⟩ => show win0_3.index t (0 : Fin 2) * 1 + 1 * (y 0).val = (y 0).val; rw [e0]; omega
  | ⟨1, _⟩ => show win0_3.index t (1 : Fin 2) * 256 + 1 * (y 1).val = (y 1).val; rw [e1]; omega

theorem blk0_4 (c : Dev nD) (t : Fin cfg0.N) : (iblk0 V c 4 t : Vec Ideal S128x256 .f32) = (V c main_v24 : S128x256.Idx → EReal) := by
  obtain ⟨-, -, -, -, -, -, -, -, e0, e1, -⟩ := idx0 t
  funext y
  unfold iblk0
  rw [View.read_apply]
  show (V c main_v24 : S128x256.Idx → EReal) _ = _
  refine congrArg (V c main_v24 : S128x256.Idx → EReal) (funext fun a => Fin.ext ?_)
  match a with
  | ⟨0, _⟩ => show win0_4.index t (0 : Fin 2) * 128 + 1 * (y 0).val = (y 0).val; rw [e0]; omega
  | ⟨1, _⟩ => show win0_4.index t (1 : Fin 2) * 256 + 1 * (y 1).val = (y 1).val; rw [e1]; omega

/-- What point t writes back is the rows 2000·t … of the linear map of the whole arrays. -/
theorem flushed0 (c : Dev nD) (t : Fin cfg0.N) :
    (dat0 V c).flushed 5 t = ((cfg0.win 5).blk t).view.read (Elt Ideal)
      (Spec.lin (V c main_v22) (V c main_arg0) (V c main_v23) (V c main_v24) (V c main_v25)) := by
  obtain ⟨-, -, -, -, -, -, -, -, -, -, e50, e51, ht⟩ := idx0 t
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  rw [blk0_2 V c t, blk0_3 V c t, blk0_4 V c t]
  funext j
  obtain ⟨p, q, rfl⟩ : ∃ (p : Fin 2000) (q : Fin 256), j = ix2 p q := ⟨j 0, j 1, eq_ix2 j⟩
  refine (Body.lin128_apply _ _ _ _ _ p q).trans ?_
  show _ = Spec.lin _ _ _ _ _ (((cfg0.win 5).blk t).view.emb (ix2 p q))
  have hemb : ((cfg0.win 5).blk t).view.emb (ix2 p q) = (ix2 (row t.val ht p) q : S50000x256.Idx) := funext fun a => Fin.ext (by
    match a with
    | ⟨0, _⟩ => show win0_5.index t (0 : Fin 2) * 2000 + 1 * p.val = t.val * 2000 + p.val; rw [e50]; omega
    | ⟨1, _⟩ => show win0_5.index t (1 : Fin 2) * 256 + 1 * q.val = q.val; rw [e51]; omega)
  rw [hemb]
  show _ = Spec.lin1 _ _ _ _ _ (row t.val ht p) q
  unfold Spec.lin1
  simp only [blk0_0 V c t ht, blk0_1 V c t ht]

/-- An index of the result array is in point t's block iff each coordinate is in the block's range on its axis. -/
theorem mem_blk0 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v26).slice (win0_5.rect t)).set ↔ _
  rw [View.set_slice_whole, Rect.mem_set_unit]
  exact Iff.rfl

/-- Every row block is some point's. -/
theorem onto0 : ∀ q0 : Fin 25, ∃ t : Fin cfg0.N, win0_5.index t = ![q0.val, 0] :=
  (by decide +kernel : ∀ q0 : Fin 25, ∃ t : Fin grid0.N, win0_5.index t = ![q0.val, 0])

/-- The 25 row blocks cover the array: row r is in the block of point r / 2000. -/
theorem cover0 (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := onto0 ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- THE RESULT ARRAY after the region: the linear map of the arrays the region finds. -/
theorem final0 (c : Dev nD) :
    (dat0 V c).arrAt 5 cfg0.N = Spec.lin (V c main_v22) (V c main_arg0) (V c main_v23) (V c main_v24) (V c main_v25) :=
  (dat0 V c).arrAt_eq_of_cover 5 _ (fun t _ => flushed0 V c t) cover0

end Cert.KernelIdeal.Val

end
-- ==== Proof.Region1.lean ====
/-
  The first layer's normalisation region, as one whole-array function of the arrays the region finds.

  Point t of 25 fetches rows 2000·t … 2000·t + 1999 of the linear map's result and, whole, the four [1, 256] rows — the
  columns' means and variances, the scale and the shift — and writes back the same rows normalised, floored at zero.
  The block written back is the restriction of `Spec.normRelu` of the whole arrays to those rows, and the 25 row blocks
  cover the 50000 rows.
-/
import proofs.«113280_j64192581206427_1_alg».proof.Proof.Gen.KernelIdeal.Frame
import proofs.«113280_j64192581206427_1_alg».proof.Proof.Payload
import proofs.«113280_j64192581206427_1_alg».proof.Proof.Region0

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The printed index maps over the grid: the row-blocked windows sit at block (t, 0), the resident rows at (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 25 :=
  (by decide +kernel : ∀ t : Fin grid1.N, _)

theorem blk1_0 (c : Dev nD) (t : Fin cfg1.N) (ht : t.val < 25) (p : Fin 2000) (k : Fin 256) :
    (iblk1 V c 0 t : Vec Ideal S2000x256 .f32) (ix2 p k) = (V c main_v26 : S50000x256.Idx → EReal) (ix2 (row t.val ht p) k) := by
  obtain ⟨e0, e1, -⟩ := idx1 t
  unfold iblk1
  rw [View.read_apply]
  show (V c main_v26 : S50000x256.Idx → EReal) _ = _
  refine congrArg (V c main_v26 : S50000x256.Idx → EReal) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 256 + 1 * k.val = k.val; rw [e1]; omega

/-- A resident row's block is the whole row, at every point. -/
theorem blk1_1 (c : Dev nD) (t : Fin cfg1.N) : (iblk1 V c 1 t : Vec Ideal S1x256 .f32) = (V c main_v37 : S1x256.Idx → EReal) := by
  obtain ⟨-, -, e0, e1, -⟩ := idx1 t
  funext y
  unfold iblk1
  rw [View.read_apply]
  show (V c main_v37 : S1x256.Idx → EReal) _ = _
  refine congrArg (V c main_v37 : S1x256.Idx → EReal) (funext fun a => Fin.ext ?_)
  match a with
  | ⟨0, _⟩ => show win1_1.index t (0 : Fin 2) * 1 + 1 * (y 0).val = (y 0).val; rw [e0]; omega
  | ⟨1, _⟩ => show win1_1.index t (1 : Fin 2) * 256 + 1 * (y 1).val = (y 1).val; rw [e1]; omega

theorem blk1_2 (c : Dev nD) (t : Fin cfg1.N) : (iblk1 V c 2 t : Vec Ideal S1x256 .f32) = (V c main_v38 : S1x256.Idx → EReal) := by
  obtain ⟨-, -, -, -, e0, e1, -⟩ := idx1 t
  funext y
  unfold iblk1
  rw [View.read_apply]
  show (V c main_v38 : S1x256.Idx → EReal) _ = _
  refine congrArg (V c main_v38 : S1x256.Idx → EReal) (funext fun a => Fin.ext ?_)
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

theorem blk1_3 (c : Dev nD) (t : Fin cfg1.N) : (iblk1 V c 3 t : Vec Ideal S1x256 .f32) = (V c main_v39 : S1x256.Idx → EReal) := by
  obtain ⟨-, -, -, -, -, -, e0, e1, -⟩ := idx1 t
  funext y
  unfold iblk1
  rw [View.read_apply]
  show (V c main_v39 : S1x256.Idx → EReal) _ = _
  refine congrArg (V c main_v39 : S1x256.Idx → EReal) (funext fun a => Fin.ext ?_)
  match a with
  | ⟨0, _⟩ => show win1_3.index t (0 : Fin 2) * 1 + 1 * (y 0).val = (y 0).val; rw [e0]; omega
  | ⟨1, _⟩ => show win1_3.index t (1 : Fin 2) * 256 + 1 * (y 1).val = (y 1).val; rw [e1]; omega

theorem blk1_4 (c : Dev nD) (t : Fin cfg1.N) : (iblk1 V c 4 t : Vec Ideal S1x256 .f32) = (V c main_v40 : S1x256.Idx → EReal) := by
  obtain ⟨-, -, -, -, -, -, -, -, e0, e1, -⟩ := idx1 t
  funext y
  unfold iblk1
  rw [View.read_apply]
  show (V c main_v40 : S1x256.Idx → EReal) _ = _
  refine congrArg (V c main_v40 : S1x256.Idx → EReal) (funext fun a => Fin.ext ?_)
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

/-- What point t writes back is the rows 2000·t … of the normalisation of the whole arrays. -/
theorem flushed1 (c : Dev nD) (t : Fin cfg1.N) :
    (dat1 V c).flushed 5 t = ((cfg1.win 5).blk t).view.read (Elt Ideal)
      (Spec.normRelu (V c main_v26) (V c main_v37) (V c main_v38) (V c main_v39) (V c main_v40)) := by
  obtain ⟨-, -, -, -, -, -, -, -, -, -, e50, e51, ht⟩ := idx1 t
  show (cfg1.win 5).cut (grid1.coords t) ((dat1 V c).after 5 t) = _
  rw [after1_5]
  unfold out1_5
  rw [View.canon_unit_zero hz]
  simp only [View.ld_unit_zero (S := S2000x256) hz, View.ld_unit_zero (S := S1x256) hz]
  rw [blk1_1 V c t, blk1_2 V c t, blk1_3 V c t, blk1_4 V c t]
  funext j
  obtain ⟨p, q, rfl⟩ : ∃ (p : Fin 2000) (q : Fin 256), j = ix2 p q := ⟨j 0, j 1, eq_ix2 j⟩
  refine (Body.bnRelu_apply _ _ _ _ _ p q).trans ?_
  show _ = Spec.normRelu _ _ _ _ _ (((cfg1.win 5).blk t).view.emb (ix2 p q))
  have hemb : ((cfg1.win 5).blk t).view.emb (ix2 p q) = (ix2 (row t.val ht p) q : S50000x256.Idx) := funext fun a => Fin.ext (by
    match a with
    | ⟨0, _⟩ => show win1_5.index t (0 : Fin 2) * 2000 + 1 * p.val = t.val * 2000 + p.val; rw [e50]; omega
    | ⟨1, _⟩ => show win1_5.index t (1 : Fin 2) * 256 + 1 * q.val = q.val; rw [e51]; omega)
  rw [hemb]
  show max (Spec.norm1 (iblk1 V c 0 t (ix2 p q)) _ _ _ _) _ = max (Spec.norm1 ((V c main_v26 : S50000x256.Idx → EReal) (ix2 (row t.val ht p) q)) _ _ _ _) _
  rw [blk1_0 V c t ht]

/-- An index of the result array is in point t's block iff each coordinate is in the block's range on its axis. -/
theorem mem_blk1 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v41).slice (win1_5.rect t)).set ↔ _
  rw [View.set_slice_whole, Rect.mem_set_unit]
  exact Iff.rfl

/-- Every row block is some point's. -/
theorem onto1 : ∀ q0 : Fin 25, ∃ t : Fin cfg1.N, win1_5.index t = ![q0.val, 0] :=
  (by decide +kernel : ∀ q0 : Fin 25, ∃ t : Fin grid1.N, win1_5.index t = ![q0.val, 0])

/-- The 25 row blocks cover the array: row r is in the block of point r / 2000. -/
theorem cover1 (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, ht⟩ := onto1 ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- THE RESULT ARRAY after the region: the normalisation of the arrays the region finds. -/
theorem final1 (c : Dev nD) :
    (dat1 V c).arrAt 5 cfg1.N = Spec.normRelu (V c main_v26) (V c main_v37) (V c main_v38) (V c main_v39) (V c main_v40) :=
  (dat1 V c).arrAt_eq_of_cover 5 _ (fun t _ => flushed1 V c t) cover1

end Cert.KernelIdeal.Val

end
-- ==== Proof.Region2.lean ====
/-
  The second layer's linear region, as one whole-array function of the arrays the region finds.

  As in the first layer, with 256 input features: point t of 25 fetches rows 2000·t … 2000·t + 1999 of the aggregated
  features and of the layer's input, the two [256, 256] weight matrices and the bias row whole, and writes back the
  same rows of the result; the block written back is the restriction of `Spec.lin` of the whole arrays to those rows,
  and the 25 row blocks cover the 50000 rows.
-/
import proofs.«113280_j64192581206427_1_alg».proof.Proof.Gen.KernelIdeal.Frame
import proofs.«113280_j64192581206427_1_alg».proof.Proof.Payload
import proofs.«113280_j64192581206427_1_alg».proof.Proof.Region0

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The printed index maps over the grid: the row-blocked windows sit at block (t, 0), the resident ones at (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 25 :=
  (by decide +kernel : ∀ t : Fin grid2.N, _)

theorem blk2_0 (c : Dev nD) (t : Fin cfg2.N) (ht : t.val < 25) (p : Fin 2000) (k : Fin 256) :
    (iblk2 V c 0 t : Vec Ideal S2000x256 .f32) (ix2 p k) = (V c main_v53 : S50000x256.Idx → EReal) (ix2 (row t.val ht p) k) := by
  obtain ⟨e0, e1, -⟩ := idx2 t
  unfold iblk2
  rw [View.read_apply]
  show (V c main_v53 : S50000x256.Idx → EReal) _ = _
  refine congrArg (V c main_v53 : S50000x256.Idx → EReal) (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 256 + 1 * k.val = k.val; rw [e1]; omega

theorem blk2_1 (c : Dev nD) (t : Fin cfg2.N) (ht : t.val < 25) (p : Fin 2000) (k : Fin 256) :
    (iblk2 V c 1 t : Vec Ideal S2000x256 .f32) (ix2 p k) = (V c main_v41 : S50000x256.Idx → EReal) (ix2 (row t.val ht p) k) := by
  obtain ⟨-, -, e0, e1, -⟩ := idx2 t
  unfold iblk2
  rw [View.read_apply]
  show (V c main_v41 : S50000x256.Idx → EReal) _ = _
  refine congrArg (V c main_v41 : S50000x256.Idx → EReal) (funext fun a => Fin.ext ?_)
  match a with
  | ⟨0, _⟩ => show win2_1.index t (0 : Fin 2) * 2000 + 1 * p.val = t.val * 2000 + p.val; rw [e0]; omega
  | ⟨1, _⟩ => show win2_1.index t (1 : Fin 2) * 256 + 1 * k.val = k.val; rw [e1]; omega

/-- A resident window's block is its whole array, at every point. -/
theorem blk2_2 (c : Dev nD) (t : Fin cfg2.N) : (iblk2 V c 2 t : Vec Ideal S256x256 .f32) = (V c main_v54 : S256x256.Idx → EReal) := by
  obtain ⟨-, -, -, -, e0, e1, -⟩ := idx2 t
  funext y
  unfold iblk2
  rw [View.read_apply]
  show (V c main_v54 : S256x256.Idx → EReal) _ = _
  refine congrArg (V c main_v54 : S256x256.Idx → EReal) (funext fun a => Fin.ext ?_)
  match a with
  | ⟨0, _⟩ => show win2_2.index t (0 : Fin 2) * 256 + 1 * (y 0).val = (y 0).val; rw [e0]; omega
  | ⟨1, _⟩ => show win2_2.index t (1 : Fin 2) * 256 + 1 * (y 1).val = (y 1).val; rw [e1]; omega

theorem blk2_3 (c : Dev nD) (t : Fin cfg2.N) : (iblk2 V c 3 t : Vec Ideal S1x256 .f32) = (V c main_v56 : S1x256.Idx → EReal) := by
  obtain ⟨-, -, -, -, -, -, e0, e1, -⟩ := idx2 t
  funext y
  unfold iblk2
  rw [View.read_apply]
  show (V c main_v56 : S1x256.Idx → EReal) _ = _
  refine congrArg (V c main_v56 : S1x256.Idx → EReal) (funext fun a => Fin.ext ?_)
  match a with
  | ⟨0, _⟩ => show win2_3.index t (0 : Fin 2) * 1 + 1 * (y 0).val = (y 0).val; rw [e0]; omega
  | ⟨1, _⟩ => show win2_3.index t (1 : Fin 2) * 256 + 1 * (y 1).val = (y 1).val; rw [e1]; omega

theorem blk2_4 (c : Dev nD) (t : Fin cfg2.N) : (iblk2 V c 4 t : Vec Ideal S256x256 .f32) = (V c main_v55 : S256x256.Idx → EReal) := by
  obtain ⟨-, -, -, -, -, -, -, -, e0, e1, -⟩ := idx2 t
  funext y
  unfold iblk2
  rw [View.read_apply]
  show (V c main_v55 : S256x256.Idx → EReal) _ = _
  refine congrArg (V c main_v55 : S256x256.Idx → EReal) (funext fun a => Fin.ext ?_)
  match a with
  | ⟨0, _⟩ => show win2_4.index t (0 : Fin 2) * 256 + 1 * (y 0).val = (y 0).val; rw [e0]; omega
  | ⟨1, _⟩ => show win2_4.index t (1 : Fin 2) * 256 + 1 * (y 1).val = (y 1).val; rw [e1]; omega

/-- What point t writes back is the rows 2000·t … of the linear map of the whole arrays. -/
theorem flushed2 (c : Dev nD) (t : Fin cfg2.N) :
    (dat2 V c).flushed 5 t = ((cfg2.win 5).blk t).view.read (Elt Ideal)
      (Spec.lin (V c main_v53) (V c main_v41) (V c main_v54) (V c main_v55) (V c main_v56)) := by
  obtain ⟨-, -, -, -, -, -, -, -, -, -, e50, e51, ht⟩ := idx2 t
  show (cfg2.win 5).cut (grid2.coords t) ((dat2 V c).after 5 t) = _
  rw [after2_5]
  unfold out2_5
  rw [View.canon_unit_zero hz]
  simp only [View.ld_unit_zero (S := S2000x256) hz, View.ld_unit_zero (S := S256x256) hz, View.ld_unit_zero (S := S1x256) hz]
  rw [blk2_2 V c t, blk2_3 V c t, blk2_4 V c t]
  funext j
  obtain ⟨p, q, rfl⟩ : ∃ (p : Fin 2000) (q : Fin 256), j = ix2 p q := ⟨j 0, j 1, eq_ix2 j⟩
  refine (Body.lin256_apply _ _ _ _ _ p q).trans ?_
  show _ = Spec.lin _ _ _ _ _ (((cfg2.win 5).blk t).view.emb (ix2 p q))
  have hemb : ((cfg2.win 5).blk t).view.emb (ix2 p q) = (ix2 (row t.val ht p) q : S50000x256.Idx) := funext fun a => Fin.ext (by
    match a with
    | ⟨0, _⟩ => show win2_5.index t (0 : Fin 2) * 2000 + 1 * p.val = t.val * 2000 + p.val; rw [e50]; omega
    | ⟨1, _⟩ => show win2_5.index t (1 : Fin 2) * 256 + 1 * q.val = q.val; rw [e51]; omega)
  rw [hemb]
  show _ = Spec.lin1 _ _ _ _ _ (row t.val ht p) q
  unfold Spec.lin1
  simp only [blk2_0 V c t ht, blk2_1 V c t ht]

/-- An index of the result array is in point t's block iff each coordinate is in the block's range on its axis. -/
theorem mem_blk2 (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v57).slice (win2_5.rect t)).set ↔ _
  rw [View.set_slice_whole, Rect.mem_set_unit]
  exact Iff.rfl

/-- Every row block is some point's. -/
theorem onto2 : ∀ q0 : Fin 25, ∃ t : Fin cfg2.N, win2_5.index t = ![q0.val, 0] :=
  (by decide +kernel : ∀ q0 : Fin 25, ∃ t : Fin grid2.N, win2_5.index t = ![q0.val, 0])

/-- The 25 row blocks cover the array: row r is in the block of point r / 2000. -/
theorem cover2 (i : S50000x256.Idx) : ∃ t : Fin cfg2.N, (cfg2.win 5).flush t = true ∧ i ∈ ((cfg2.win 5).blk t).view.set := by
  have hi0 : (i 0).val < 50000 := (i 0).isLt
  have hi1 : (i 1).val < 256 := (i 1).isLt
  obtain ⟨t, ht⟩ := onto2 ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 256 ≤ (i 1).val ∧ (i 1).val < win2_5.index t (1 : Fin 2) * 256 + 256; omega

/-- THE RESULT ARRAY after the region: the linear map of the arrays the region finds. -/
theorem final2 (c : Dev nD) :
    (dat2 V c).arrAt 5 cfg2.N = Spec.lin (V c main_v53) (V c main_v41) (V c main_v54) (V c main_v55) (V c main_v56) :=
  (dat2 V c).arrAt_eq_of_cover 5 _ (fun t _ => flushed2 V c t) cover2

end Cert.KernelIdeal.Val

end
-- ==== Proof.Region3.lean ====
/-
  The second layer's normalisation region, as one whole-array function of the arrays the region finds.

  Point t of 25 fetches rows 2000·t … 2000·t + 1999 of the linear map's result and, whole, the four [1, 256] rows — the
  columns' means and variances, the scale and the shift — and writes back the same rows normalised, floored at zero.
  The block written back is the restriction of `Spec.normRelu` of the whole arrays to those rows, and the 25 row blocks
  cover the 50000 rows.
-/
import proofs.«113280_j64192581206427_1_alg».proof.Proof.Gen.KernelIdeal.Frame
import proofs.«113280_j64192581206427_1_alg».proof.Proof.Payload
import proofs.«113280_j64192581206427_1_alg».proof.Proof.Region0

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The printed index maps over the grid: the row-blocked windows sit at block (t, 0), the resident rows at (0, 0). -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 ∧ t.val < 25 :=
  (by decide +kernel : ∀ t : Fin grid3.N, _)

theorem blk3_0 (c : Dev nD) (t : Fin cfg3.N) (ht : t.val < 25) (p : Fin 2000) (k : Fin 256) :
    (iblk3 V c 0 t : Vec Ideal S2000x256 .f32) (ix2 p k) = (V c main_v57 : S50000x256.Idx → EReal) (ix2 (row t.val ht p) k) := by
  obtain ⟨e0, e1, -⟩ := idx3 t
  unfold iblk3
  rw [View.read_apply]
  show (V c main_v57 : S50000x256.Idx → EReal) _ = _
  refine congrArg (V c main_v57 : S50000x256.Idx → EReal) (funext fun a => Fin.ext ?_)
  match a with
  | ⟨0, _⟩ => show win3_0.index t (0 : Fin 2) * 2000 + 1 * p.val = t.val * 2000 + p.val; rw [e0]; omega
  | ⟨1, _⟩ => show win3_0.index t (1 : Fin 2) * 256 + 1 * k.val = k.val; rw [e1]; omega

/-- A resident row's block is the whole row, at every point. -/
theorem blk3_1 (c : Dev nD) (t : Fin cfg3.N) : (iblk3 V c 1 t : Vec Ideal S1x256 .f32) = (V c main_v68 : S1x256.Idx → EReal) := by
  obtain ⟨-, -, e0, e1, -⟩ := idx3 t
  funext y
  unfold iblk3
  rw [View.read_apply]
  show (V c main_v68 : S1x256.Idx → EReal) _ = _
  refine congrArg (V c main_v68 : S1x256.Idx → EReal) (funext fun a => Fin.ext ?_)
  match a with
  | ⟨0, _⟩ => show win3_1.index t (0 : Fin 2) * 1 + 1 * (y 0).val = (y 0).val; rw [e0]; omega
  | ⟨1, _⟩ => show win3_1.index t (1 : Fin 2) * 256 + 1 * (y 1).val = (y 1).val; rw [e1]; omega

theorem blk3_2 (c : Dev nD) (t : Fin cfg3.N) : (iblk3 V c 2 t : Vec Ideal S1x256 .f32) = (V c main_v69 : S1x256.Idx → EReal) := by
  obtain ⟨-, -, -, -, e0, e1, -⟩ := idx3 t
  funext y
  unfold iblk3
  rw [View.read_apply]
  show (V c main_v69 : S1x256.Idx → EReal) _ = _
  refine congrArg (V c main_v69 : S1x256.Idx → EReal) (funext fun a => Fin.ext ?_)
  match a with
  | ⟨0, _⟩ => show win3_2.index t (0 : Fin 2) * 1 + 1 * (y 0).val = (y 0).val; rw [e0]; omega
  | ⟨1, _⟩ => show win3_2.index t (1 : Fin 2) * 256 + 1 * (y 1).val = (y 1).val; rw [e1]; omega

theorem blk3_3 (c : Dev nD) (t : Fin cfg3.N) : (iblk3 V c 3 t : Vec Ideal S1x256 .f32) = (V c main_v70 : S1x256.Idx → EReal) := by
  obtain ⟨-, -, -, -, -, -, e0, e1, -⟩ := idx3 t
  funext y
  unfold iblk3
  rw [View.read_apply]
  show (V c main_v70 : S1x256.Idx → EReal) _ = _
  refine congrArg (V c main_v70 : S1x256.Idx → EReal) (funext fun a => Fin.ext ?_)
  match a with
  | ⟨0, _⟩ => show win3_3.index t (0 : Fin 2) * 1 + 1 * (y 0).val = (y 0).val; rw [e0]; omega
  | ⟨1, _⟩ => show win3_3.index t (1 : Fin 2) * 256 + 1 * (y 1).val = (y 1).val; rw [e1]; omega

theorem blk3_4 (c : Dev nD) (t : Fin cfg3.N) : (iblk3 V c 4 t : Vec Ideal S1x256 .f32) = (V c main_v71 : S1x256.Idx → EReal) := by
  obtain ⟨-, -, -, -, -, -, -, -, e0, e1, -⟩ := idx3 t
  funext y
  unfold iblk3
  rw [View.read_apply]
  show (V c main_v71 : S1x256.Idx → EReal) _ = _
  refine congrArg (V c main_v71 : S1x256.Idx → EReal) (funext fun a => Fin.ext ?_)
  match a with
  | ⟨0, _⟩ => show win3_4.index t (0 : Fin 2) * 1 + 1 * (y 0).val = (y 0).val; rw [e0]; omega
  | ⟨1, _⟩ => show win3_4.index t (1 : Fin 2) * 256 + 1 * (y 1).val = (y 1).val; rw [e1]; omega

/-- What point t writes back is the rows 2000·t … of the normalisation of the whole arrays. -/
theorem flushed3 (c : Dev nD) (t : Fin cfg3.N) :
    (dat3 V c).flushed 5 t = ((cfg3.win 5).blk t).view.read (Elt Ideal)
      (Spec.normRelu (V c main_v57) (V c main_v68) (V c main_v69) (V c main_v70) (V c main_v71)) := by
  obtain ⟨-, -, -, -, -, -, -, -, -, -, e50, e51, ht⟩ := idx3 t
  show (cfg3.win 5).cut (grid3.coords t) ((dat3 V c).after 5 t) = _
  rw [after3_5]
  unfold out3_5
  rw [View.canon_unit_zero hz]
  simp only [View.ld_unit_zero (S := S2000x256) hz, View.ld_unit_zero (S := S1x256) hz]
  rw [blk3_1 V c t, blk3_2 V c t, blk3_3 V c t, blk3_4 V c t]
  funext j
  obtain ⟨p, q, rfl⟩ : ∃ (p : Fin 2000) (q : Fin 256), j = ix2 p q := ⟨j 0, j 1, eq_ix2 j⟩
  refine (Body.bnRelu'_apply _ _ _ _ _ p q).trans ?_
  show _ = Spec.normRelu _ _ _ _ _ (((cfg3.win 5).blk t).view.emb (ix2 p q))
  have hemb : ((cfg3.win 5).blk t).view.emb (ix2 p q) = (ix2 (row t.val ht p) q : S50000x256.Idx) := funext fun a => Fin.ext (by
    match a with
    | ⟨0, _⟩ => show win3_5.index t (0 : Fin 2) * 2000 + 1 * p.val = t.val * 2000 + p.val; rw [e50]; omega
    | ⟨1, _⟩ => show win3_5.index t (1 : Fin 2) * 256 + 1 * q.val = q.val; rw [e51]; omega)
  rw [hemb]
  show max (Spec.norm1 (iblk3 V c 0 t (ix2 p q)) _ _ _ _) _ = max (Spec.norm1 ((V c main_v57 : S50000x256.Idx → EReal) (ix2 (row t.val ht p) q)) _ _ _ _) _
  rw [blk3_0 V c t ht]

/-- An index of the result array is in point t's block iff each coordinate is in the block's range on its axis. -/
theorem mem_blk3 (t : Fin cfg3.N) (i : S50000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v72).slice (win3_5.rect t)).set ↔ _
  rw [View.set_slice_whole, Rect.mem_set_unit]
  exact Iff.rfl

/-- Every row block is some point's. -/
theorem onto3 : ∀ q0 : Fin 25, ∃ t : Fin cfg3.N, win3_5.index t = ![q0.val, 0] :=
  (by decide +kernel : ∀ q0 : Fin 25, ∃ t : Fin grid3.N, win3_5.index t = ![q0.val, 0])

/-- The 25 row blocks cover the array: row r is in the block of point r / 2000. -/
theorem cover3 (i : S50000x256.Idx) : ∃ t : Fin cfg3.N, (cfg3.win 5).flush t = true ∧ i ∈ ((cfg3.win 5).blk t).view.set := by
  have hi0 : (i 0).val < 50000 := (i 0).isLt
  have hi1 : (i 1).val < 256 := (i 1).isLt
  obtain ⟨t, ht⟩ := onto3 ⟨(i 0).val / 2000, by omega⟩
  have q0 : win3_5.index t (0 : Fin 2) = (i 0).val / 2000 := congrFun ht 0
  have q1 : win3_5.index t (1 : Fin 2) = 0 := congrFun ht 1
  refine ⟨t, flush3_5 t, ?_⟩
  rw [mem_blk3]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 256 ≤ (i 1).val ∧ (i 1).val < win3_5.index t (1 : Fin 2) * 256 + 256; omega

/-- THE RESULT ARRAY after the region: the normalisation of the arrays the region finds. -/
theorem final3 (c : Dev nD) :
    (dat3 V c).arrAt 5 cfg3.N = Spec.normRelu (V c main_v57) (V c main_v68) (V c main_v69) (V c main_v70) (V c main_v71) :=
  (dat3 V c).arrAt_eq_of_cover 5 _ (fun t _ => flushed3 V c t) cover3

end Cert.KernelIdeal.Val

end
-- ==== Proof.Region4.lean ====
/-
  The third layer's linear region, as one whole-array function of the arrays the region finds.

  As in the first layer, with 256 input features: point t of 25 fetches rows 2000·t … 2000·t + 1999 of the aggregated
  features and of the layer's input, the two [256, 256] weight matrices and the bias row whole, and writes back the
  same rows of the result; the block written back is the restriction of `Spec.lin` of the whole arrays to those rows,
  and the 25 row blocks cover the 50000 rows.
-/
import proofs.«113280_j64192581206427_1_alg».proof.Proof.Gen.KernelIdeal.Frame
import proofs.«113280_j64192581206427_1_alg».proof.Proof.Payload
import proofs.«113280_j64192581206427_1_alg».proof.Proof.Region0

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The printed index maps over the grid: the row-blocked windows sit at block (t, 0), the resident ones at (0, 0). -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 ∧ t.val < 25 :=
  (by decide +kernel : ∀ t : Fin grid4.N, _)

theorem blk4_0 (c : Dev nD) (t : Fin cfg4.N) (ht : t.val < 25) (p : Fin 2000) (k : Fin 256) :
    (iblk4 V c 0 t : Vec Ideal S2000x256 .f32) (ix2 p k) = (V c main_v84 : S50000x256.Idx → EReal) (ix2 (row t.val ht p) k) := by
  obtain ⟨e0, e1, -⟩ := idx4 t
  unfold iblk4
  rw [View.read_apply]
  show (V c main_v84 : S50000x256.Idx → EReal) _ = _
  refine congrArg (V c main_v84 : S50000x256.Idx → EReal) (funext fun a => Fin.ext ?_)
  match a with
  | ⟨0, _⟩ => show win4_0.index t (0 : Fin 2) * 2000 + 1 * p.val = t.val * 2000 + p.val; rw [e0]; omega
  | ⟨1, _⟩ => show win4_0.index t (1 : Fin 2) * 256 + 1 * k.val = k.val; rw [e1]; omega

theorem blk4_1 (c : Dev nD) (t : Fin cfg4.N) (ht : t.val < 25) (p : Fin 2000) (k : Fin 256) :
    (iblk4 V c 1 t : Vec Ideal S2000x256 .f32) (ix2 p k) = (V c main_v72 : S50000x256.Idx → EReal) (ix2 (row t.val ht p) k) := by
  obtain ⟨-, -, e0, e1, -⟩ := idx4 t
  unfold iblk4
  rw [View.read_apply]
  show (V c main_v72 : S50000x256.Idx → EReal) _ = _
  refine congrArg (V c main_v72 : S50000x256.Idx → EReal) (funext fun a => Fin.ext ?_)
  match a with
  | ⟨0, _⟩ => show win4_1.index t (0 : Fin 2) * 2000 + 1 * p.val = t.val * 2000 + p.val; rw [e0]; omega
  | ⟨1, _⟩ => show win4_1.index t (1 : Fin 2) * 256 + 1 * k.val = k.val; rw [e1]; omega

/-- A resident window's block is its whole array, at every point. -/
theorem blk4_2 (c : Dev nD) (t : Fin cfg4.N) : (iblk4 V c 2 t : Vec Ideal S256x256 .f32) = (V c main_v85 : S256x256.Idx → EReal) := by
  obtain ⟨-, -, -, -, e0, e1, -⟩ := idx4 t
  funext y
  unfold iblk4
  rw [View.read_apply]
  show (V c main_v85 : S256x256.Idx → EReal) _ = _
  refine congrArg (V c main_v85 : S256x256.Idx → EReal) (funext fun a => Fin.ext ?_)
  match a with
  | ⟨0, _⟩ => show win4_2.index t (0 : Fin 2) * 256 + 1 * (y 0).val = (y 0).val; rw [e0]; omega
  | ⟨1, _⟩ => show win4_2.index t (1 : Fin 2) * 256 + 1 * (y 1).val = (y 1).val; rw [e1]; omega

theorem blk4_3 (c : Dev nD) (t : Fin cfg4.N) : (iblk4 V c 3 t : Vec Ideal S1x256 .f32) = (V c main_v87 : S1x256.Idx → EReal) := by
  obtain ⟨-, -, -, -, -, -, e0, e1, -⟩ := idx4 t
  funext y
  unfold iblk4
  rw [View.read_apply]
  show (V c main_v87 : S1x256.Idx → EReal) _ = _
  refine congrArg (V c main_v87 : S1x256.Idx → EReal) (funext fun a => Fin.ext ?_)
  match a with
  | ⟨0, _⟩ => show win4_3.index t (0 : Fin 2) * 1 + 1 * (y 0).val = (y 0).val; rw [e0]; omega
  | ⟨1, _⟩ => show win4_3.index t (1 : Fin 2) * 256 + 1 * (y 1).val = (y 1).val; rw [e1]; omega

theorem blk4_4 (c : Dev nD) (t : Fin cfg4.N) : (iblk4 V c 4 t : Vec Ideal S256x256 .f32) = (V c main_v86 : S256x256.Idx → EReal) := by
  obtain ⟨-, -, -, -, -, -, -, -, e0, e1, -⟩ := idx4 t
  funext y
  unfold iblk4
  rw [View.read_apply]
  show (V c main_v86 : S256x256.Idx → EReal) _ = _
  refine congrArg (V c main_v86 : S256x256.Idx → EReal) (funext fun a => Fin.ext ?_)
  match a with
  | ⟨0, _⟩ => show win4_4.index t (0 : Fin 2) * 256 + 1 * (y 0).val = (y 0).val; rw [e0]; omega
  | ⟨1, _⟩ => show win4_4.index t (1 : Fin 2) * 256 + 1 * (y 1).val = (y 1).val; rw [e1]; omega

/-- What point t writes back is the rows 2000·t … of the linear map of the whole arrays. -/
theorem flushed4 (c : Dev nD) (t : Fin cfg4.N) :
    (dat4 V c).flushed 5 t = ((cfg4.win 5).blk t).view.read (Elt Ideal)
      (Spec.lin (V c main_v84) (V c main_v72) (V c main_v85) (V c main_v86) (V c main_v87)) := by
  obtain ⟨-, -, -, -, -, -, -, -, -, -, e50, e51, ht⟩ := idx4 t
  show (cfg4.win 5).cut (grid4.coords t) ((dat4 V c).after 5 t) = _
  rw [after4_5]
  unfold out4_5
  rw [View.canon_unit_zero hz]
  simp only [View.ld_unit_zero (S := S2000x256) hz, View.ld_unit_zero (S := S256x256) hz, View.ld_unit_zero (S := S1x256) hz]
  rw [blk4_2 V c t, blk4_3 V c t, blk4_4 V c t]
  funext j
  obtain ⟨p, q, rfl⟩ : ∃ (p : Fin 2000) (q : Fin 256), j = ix2 p q := ⟨j 0, j 1, eq_ix2 j⟩
  refine (Body.lin256'_apply _ _ _ _ _ p q).trans ?_
  show _ = Spec.lin _ _ _ _ _ (((cfg4.win 5).blk t).view.emb (ix2 p q))
  have hemb : ((cfg4.win 5).blk t).view.emb (ix2 p q) = (ix2 (row t.val ht p) q : S50000x256.Idx) := funext fun a => Fin.ext (by
    match a with
    | ⟨0, _⟩ => show win4_5.index t (0 : Fin 2) * 2000 + 1 * p.val = t.val * 2000 + p.val; rw [e50]; omega
    | ⟨1, _⟩ => show win4_5.index t (1 : Fin 2) * 256 + 1 * q.val = q.val; rw [e51]; omega)
  rw [hemb]
  show _ = Spec.lin1 _ _ _ _ _ (row t.val ht p) q
  unfold Spec.lin1
  simp only [blk4_0 V c t ht, blk4_1 V c t ht]

/-- An index of the result array is in point t's block iff each coordinate is in the block's range on its axis. -/
theorem mem_blk4 (t : Fin cfg4.N) (i : S50000x256.Idx) :
    i ∈ ((cfg4.win 5).blk t).view.set ↔ ∀ a : Fin 2, win4_5.index t a * S2000x256.size a ≤ (i a).val ∧ (i a).val < win4_5.index t a * S2000x256.size a + S2000x256.size a := by
  show i ∈ ((View.whole main_v88).slice (win4_5.rect t)).set ↔ _
  rw [View.set_slice_whole, Rect.mem_set_unit]
  exact Iff.rfl

/-- Every row block is some point's. -/
theorem onto4 : ∀ q0 : Fin 25, ∃ t : Fin cfg4.N, win4_5.index t = ![q0.val, 0] :=
  (by decide +kernel : ∀ q0 : Fin 25, ∃ t : Fin grid4.N, win4_5.index t = ![q0.val, 0])

/-- The 25 row blocks cover the array: row r is in the block of point r / 2000. -/
theorem cover4 (i : S50000x256.Idx) : ∃ t : Fin cfg4.N, (cfg4.win 5).flush t = true ∧ i ∈ ((cfg4.win 5).blk t).view.set := by
  have hi0 : (i 0).val < 50000 := (i 0).isLt
  have hi1 : (i 1).val < 256 := (i 1).isLt
  obtain ⟨t, ht⟩ := onto4 ⟨(i 0).val / 2000, by omega⟩
  have q0 : win4_5.index t (0 : Fin 2) = (i 0).val / 2000 := congrFun ht 0
  have q1 : win4_5.index t (1 : Fin 2) = 0 := congrFun ht 1
  refine ⟨t, flush4_5 t, ?_⟩
  rw [mem_blk4]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 256 ≤ (i 1).val ∧ (i 1).val < win4_5.index t (1 : Fin 2) * 256 + 256; omega

/-- THE RESULT ARRAY after the region: the linear map of the arrays the region finds. -/
theorem final4 (c : Dev nD) :
    (dat4 V c).arrAt 5 cfg4.N = Spec.lin (V c main_v84) (V c main_v72) (V c main_v85) (V c main_v86) (V c main_v87) :=
  (dat4 V c).arrAt_eq_of_cover 5 _ (fun t _ => flushed4 V c t) cover4

end Cert.KernelIdeal.Val

end
-- ==== Proof.Region5.lean ====
/-
  The third layer's normalisation region, as one whole-array function of the arrays the region finds.

  Point t of 25 fetches rows 2000·t … 2000·t + 1999 of the linear map's result and, whole, the four [1, 256] rows — the
  columns' means and variances, the scale and the shift — and writes back the same rows normalised.
  The block written back is the restriction of `Spec.norm` of the whole arrays to those rows, and the 25 row blocks
  cover the 50000 rows.
-/
import proofs.«113280_j64192581206427_1_alg».proof.Proof.Gen.KernelIdeal.Frame
import proofs.«113280_j64192581206427_1_alg».proof.Proof.Payload
import proofs.«113280_j64192581206427_1_alg».proof.Proof.Region0

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The printed index maps over the grid: the row-blocked windows sit at block (t, 0), the resident rows at (0, 0). -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 ∧ t.val < 25 :=
  (by decide +kernel : ∀ t : Fin grid5.N, _)

theorem blk5_0 (c : Dev nD) (t : Fin cfg5.N) (ht : t.val < 25) (p : Fin 2000) (k : Fin 256) :
    (iblk5 V c 0 t : Vec Ideal S2000x256 .f32) (ix2 p k) = (V c main_v88 : S50000x256.Idx → EReal) (ix2 (row t.val ht p) k) := by
  obtain ⟨e0, e1, -⟩ := idx5 t
  unfold iblk5
  rw [View.read_apply]
  show (V c main_v88 : S50000x256.Idx → EReal) _ = _
  refine congrArg (V c main_v88 : S50000x256.Idx → EReal) (funext fun a => Fin.ext ?_)
  match a with
  | ⟨0, _⟩ => show win5_0.index t (0 : Fin 2) * 2000 + 1 * p.val = t.val * 2000 + p.val; rw [e0]; omega
  | ⟨1, _⟩ => show win5_0.index t (1 : Fin 2) * 256 + 1 * k.val = k.val; rw [e1]; omega

/-- A resident row's block is the whole row, at every point. -/
theorem blk5_1 (c : Dev nD) (t : Fin cfg5.N) : (iblk5 V c 1 t : Vec Ideal S1x256 .f32) = (V c main_v99 : S1x256.Idx → EReal) := by
  obtain ⟨-, -, e0, e1, -⟩ := idx5 t
  funext y
  unfold iblk5
  rw [View.read_apply]
  show (V c main_v99 : S1x256.Idx → EReal) _ = _
  refine congrArg (V c main_v99 : S1x256.Idx → EReal) (funext fun a => Fin.ext ?_)
  match a with
  | ⟨0, _⟩ => show win5_1.index t (0 : Fin 2) * 1 + 1 * (y 0).val = (y 0).val; rw [e0]; omega
  | ⟨1, _⟩ => show win5_1.index t (1 : Fin 2) * 256 + 1 * (y 1).val = (y 1).val; rw [e1]; omega

theorem blk5_2 (c : Dev nD) (t : Fin cfg5.N) : (iblk5 V c 2 t : Vec Ideal S1x256 .f32) = (V c main_v100 : S1x256.Idx → EReal) := by
  obtain ⟨-, -, -, -, e0, e1, -⟩ := idx5 t
  funext y
  unfold iblk5
  rw [View.read_apply]
  show (V c main_v100 : S1x256.Idx → EReal) _ = _
  refine congrArg (V c main_v100 : S1x256.Idx → EReal) (funext fun a => Fin.ext ?_)
  match a with
  | ⟨0, _⟩ => show win5_2.index t (0 : Fin 2) * 1 + 1 * (y 0).val = (y 0).val; rw [e0]; omega
  | ⟨1, _⟩ => show win5_2.index t (1 : Fin 2) * 256 + 1 * (y 1).val = (y 1).val; rw [e1]; omega

theorem blk5_3 (c : Dev nD) (t : Fin cfg5.N) : (iblk5 V c 3 t : Vec Ideal S1x256 .f32) = (V c main_v101 : S1x256.Idx → EReal) := by
  obtain ⟨-, -, -, -, -, -, e0, e1, -⟩ := idx5 t
  funext y
  unfold iblk5
  rw [View.read_apply]
  show (V c main_v101 : S1x256.Idx → EReal) _ = _
  refine congrArg (V c main_v101 : S1x256.Idx → EReal) (funext fun a => Fin.ext ?_)
  match a with
  | ⟨0, _⟩ => show win5_3.index t (0 : Fin 2) * 1 + 1 * (y 0).val = (y 0).val; rw [e0]; omega
  | ⟨1, _⟩ => show win5_3.index t (1 : Fin 2) * 256 + 1 * (y 1).val = (y 1).val; rw [e1]; omega

theorem blk5_4 (c : Dev nD) (t : Fin cfg5.N) : (iblk5 V c 4 t : Vec Ideal S1x256 .f32) = (V c main_v102 : S1x256.Idx → EReal) := by
  obtain ⟨-, -, -, -, -, -, -, -, e0, e1, -⟩ := idx5 t
  funext y
  unfold iblk5
  rw [View.read_apply]
  show (V c main_v102 : S1x256.Idx → EReal) _ = _
  refine congrArg (V c main_v102 : S1x256.Idx → EReal) (funext fun a => Fin.ext ?_)
  match a with
  | ⟨0, _⟩ => show win5_4.index t (0 : Fin 2) * 1 + 1 * (y 0).val = (y 0).val; rw [e0]; omega
  | ⟨1, _⟩ => show win5_4.index t (1 : Fin 2) * 256 + 1 * (y 1).val = (y 1).val; rw [e1]; omega

/-- What point t writes back is the rows 2000·t … of the normalisation of the whole arrays. -/
theorem flushed5 (c : Dev nD) (t : Fin cfg5.N) :
    (dat5 V c).flushed 5 t = ((cfg5.win 5).blk t).view.read (Elt Ideal)
      (Spec.norm (V c main_v88) (V c main_v99) (V c main_v100) (V c main_v101) (V c main_v102)) := by
  obtain ⟨-, -, -, -, -, -, -, -, -, -, e50, e51, ht⟩ := idx5 t
  show (cfg5.win 5).cut (grid5.coords t) ((dat5 V c).after 5 t) = _
  rw [after5_5]
  unfold out5_5
  rw [View.canon_unit_zero hz]
  simp only [View.ld_unit_zero (S := S2000x256) hz, View.ld_unit_zero (S := S1x256) hz]
  rw [blk5_1 V c t, blk5_2 V c t, blk5_3 V c t, blk5_4 V c t]
  funext j
  obtain ⟨p, q, rfl⟩ : ∃ (p : Fin 2000) (q : Fin 256), j = ix2 p q := ⟨j 0, j 1, eq_ix2 j⟩
  refine (Body.bn_apply _ _ _ _ _ p q).trans ?_
  show _ = Spec.norm _ _ _ _ _ (((cfg5.win 5).blk t).view.emb (ix2 p q))
  have hemb : ((cfg5.win 5).blk t).view.emb (ix2 p q) = (ix2 (row t.val ht p) q : S50000x256.Idx) := funext fun a => Fin.ext (by
    match a with
    | ⟨0, _⟩ => show win5_5.index t (0 : Fin 2) * 2000 + 1 * p.val = t.val * 2000 + p.val; rw [e50]; omega
    | ⟨1, _⟩ => show win5_5.index t (1 : Fin 2) * 256 + 1 * q.val = q.val; rw [e51]; omega)
  rw [hemb]
  show Spec.norm1 (iblk5 V c 0 t (ix2 p q)) _ _ _ _ = Spec.norm1 ((V c main_v88 : S50000x256.Idx → EReal) (ix2 (row t.val ht p) q)) _ _ _ _
  rw [blk5_0 V c t ht]

/-- An index of the result array is in point t's block iff each coordinate is in the block's range on its axis. -/
theorem mem_blk5 (t : Fin cfg5.N) (i : S50000x256.Idx) :
    i ∈ ((cfg5.win 5).blk t).view.set ↔ ∀ a : Fin 2, win5_5.index t a * S2000x256.size a ≤ (i a).val ∧ (i a).val < win5_5.index t a * S2000x256.size a + S2000x256.size a := by
  show i ∈ ((View.whole main_v103).slice (win5_5.rect t)).set ↔ _
  rw [View.set_slice_whole, Rect.mem_set_unit]
  exact Iff.rfl

/-- Every row block is some point's. -/
theorem onto5 : ∀ q0 : Fin 25, ∃ t : Fin cfg5.N, win5_5.index t = ![q0.val, 0] :=
  (by decide +kernel : ∀ q0 : Fin 25, ∃ t : Fin grid5.N, win5_5.index t = ![q0.val, 0])

/-- The 25 row blocks cover the array: row r is in the block of point r / 2000. -/
theorem cover5 (i : S50000x256.Idx) : ∃ t : Fin cfg5.N, (cfg5.win 5).flush t = true ∧ i ∈ ((cfg5.win 5).blk t).view.set := by
  have hi0 : (i 0).val < 50000 := (i 0).isLt
  have hi1 : (i 1).val < 256 := (i 1).isLt
  obtain ⟨t, ht⟩ := onto5 ⟨(i 0).val / 2000, by omega⟩
  have q0 : win5_5.index t (0 : Fin 2) = (i 0).val / 2000 := congrFun ht 0
  have q1 : win5_5.index t (1 : Fin 2) = 0 := congrFun ht 1
  refine ⟨t, flush5_5 t, ?_⟩
  rw [mem_blk5]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 256 ≤ (i 1).val ∧ (i 1).val < win5_5.index t (1 : Fin 2) * 256 + 256; omega

/-- THE RESULT ARRAY after the region: the normalisation of the arrays the region finds. -/
theorem final5 (c : Dev nD) :
    (dat5 V c).arrAt 5 cfg5.N = Spec.norm (V c main_v88) (V c main_v99) (V c main_v100) (V c main_v101) (V c main_v102) :=
  (dat5 V c).arrAt_eq_of_cover 5 _ (fun t _ => flushed5 V c t) cover5

end Cert.KernelIdeal.Val

end
-- ==== Proof.KChain.lean ====
/-
  The idealized kernel's result, read off the boundaries of its run.

  The run alternates six stretches of host operations with six regions; `W k` is the buffers' contents at boundary k
  (W 0 at launch, W 12 at the end).  A stretch rewrites the buffers its operations write and leaves the others; a region
  rewrites its output array and leaves the others.  So a buffer is carried unchanged from the boundary after its last
  write to where it is read: the arguments from the launch, the edge list's two rows and the degree column from the
  first stretch to the aggregations of the second and third layers, each region's output through the stretch after it.
  Each stretch's results are the shared host stages (`agg`, `colMean`, `colVar`, `tr`, `asRow`) of the buffers it reads;
  each region's output is `Spec.lin`, `Spec.normRelu` or `Spec.norm` of its input arrays (the region modules).
  Composed: the result is the three-layer network `net` of the arguments.
-/
import proofs.«113280_j64192581206427_1_alg».proof.Proof.Gen.KernelIdeal.Frame
import proofs.«113280_j64192581206427_1_alg».proof.Proof.HostFns
import proofs.«113280_j64192581206427_1_alg».proof.Proof.Region0
import proofs.«113280_j64192581206427_1_alg».proof.Proof.Region1
import proofs.«113280_j64192581206427_1_alg».proof.Proof.Region2
import proofs.«113280_j64192581206427_1_alg».proof.Proof.Region3
import proofs.«113280_j64192581206427_1_alg».proof.Proof.Region4
import proofs.«113280_j64192581206427_1_alg».proof.Proof.Region5
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

/-- A buffer no operation of a stretch writes is carried through it. -/
macro "keep_host " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## The layers as functions of their inputs -/

def layer0 (x : Arr Ideal S50000x128 .f32) (ei : Arr Ideal S2x800000 .i32) (wl : Arr Ideal S256x128 .f32) (bl : Arr Ideal S256 .f32)
    (wr : Arr Ideal S256x128 .f32) (g b : Arr Ideal S256 .f32) : Arr Ideal S50000x256 .f32 :=
  let y : Arr Ideal S50000x256 .f32 := Spec.lin (agg128 x (srcOf ei) (dstOf ei) (degOf (dstOf ei))) x (tr128 wl) (tr128 wr) (asRow bl)
  Spec.normRelu y (asRow (colMean y)) (asRow (colVar y (colMean y))) (asRow g) (asRow b)

def layerMid (h : Arr Ideal S50000x256 .f32) (ei : Arr Ideal S2x800000 .i32) (wl : Arr Ideal S256x256 .f32) (bl : Arr Ideal S256 .f32)
    (wr : Arr Ideal S256x256 .f32) (g b : Arr Ideal S256 .f32) : Arr Ideal S50000x256 .f32 :=
  let y : Arr Ideal S50000x256 .f32 := Spec.lin (agg256 h (srcOf ei) (dstOf ei) (degOf (dstOf ei))) h (tr256 wl) (tr256 wr) (asRow bl)
  Spec.normRelu y (asRow (colMean y)) (asRow (colVar y (colMean y))) (asRow g) (asRow b)

def layerLast (h : Arr Ideal S50000x256 .f32) (ei : Arr Ideal S2x800000 .i32) (wl : Arr Ideal S256x256 .f32) (bl : Arr Ideal S256 .f32)
    (wr : Arr Ideal S256x256 .f32) (g b : Arr Ideal S256 .f32) : Arr Ideal S50000x256 .f32 :=
  let y : Arr Ideal S50000x256 .f32 := Spec.lin (agg256 h (srcOf ei) (dstOf ei) (degOf (dstOf ei))) h (tr256 wl) (tr256 wr) (asRow bl)
  Spec.norm y (asRow (colMean y)) (asRow (colVar y (colMean y))) (asRow g) (asRow b)

variable (m : (ℓ : Loc nD τ sig) → Buf (Elt Ideal) ℓ) (ρ : Dev nD → PrngReg)

/-! ## The arguments, carried from the launch to where they are read -/

theorem arg0_at1 (c : Dev nD) : W1 m ρ c (Proc.devRef .tc main_arg0) = m ((c : Thread nD τ).loc main_arg0) :=
  (show W1 m ρ c (Proc.devRef .tc main_arg0) = W0 m ρ c (Proc.devRef .tc main_arg0) from by keep_host hostOps0).trans rfl
theorem arg5_at2 (c : Dev nD) : W2 m ρ c (Proc.devRef .tc main_arg5) = m ((c : Thread nD τ).loc main_arg5) :=
  ((W2_of_ne m ρ c main_arg5 (by decide)).trans (show W1 m ρ c (Proc.devRef .tc main_arg5) = W0 m ρ c (Proc.devRef .tc main_arg5) from by keep_host hostOps0)).trans rfl
theorem arg6_at2 (c : Dev nD) : W2 m ρ c (Proc.devRef .tc main_arg6) = m ((c : Thread nD τ).loc main_arg6) :=
  ((W2_of_ne m ρ c main_arg6 (by decide)).trans (show W1 m ρ c (Proc.devRef .tc main_arg6) = W0 m ρ c (Proc.devRef .tc main_arg6) from by keep_host hostOps0)).trans rfl
theorem arg7_at4 (c : Dev nD) : W4 m ρ c (Proc.devRef .tc main_arg7) = m ((c : Thread nD τ).loc main_arg7) :=
  ((W4_of_ne m ρ c main_arg7 (by decide)).trans ((show W3 m ρ c (Proc.devRef .tc main_arg7) = W2 m ρ c (Proc.devRef .tc main_arg7) from by keep_host hostOps1).trans ((W2_of_ne m ρ c main_arg7 (by decide)).trans (show W1 m ρ c (Proc.devRef .tc main_arg7) = W0 m ρ c (Proc.devRef .tc main_arg7) from by keep_host hostOps0)))).trans rfl
theorem arg8_at4 (c : Dev nD) : W4 m ρ c (Proc.devRef .tc main_arg8) = m ((c : Thread nD τ).loc main_arg8) :=
  ((W4_of_ne m ρ c main_arg8 (by decide)).trans ((show W3 m ρ c (Proc.devRef .tc main_arg8) = W2 m ρ c (Proc.devRef .tc main_arg8) from by keep_host hostOps1).trans ((W2_of_ne m ρ c main_arg8 (by decide)).trans (show W1 m ρ c (Proc.devRef .tc main_arg8) = W0 m ρ c (Proc.devRef .tc main_arg8) from by keep_host hostOps0)))).trans rfl
theorem arg9_at4 (c : Dev nD) : W4 m ρ c (Proc.devRef .tc main_arg9) = m ((c : Thread nD τ).loc main_arg9) :=
  ((W4_of_ne m ρ c main_arg9 (by decide)).trans ((show W3 m ρ c (Proc.devRef .tc main_arg9) = W2 m ρ c (Proc.devRef .tc main_arg9) from by keep_host hostOps1).trans ((W2_of_ne m ρ c main_arg9 (by decide)).trans (show W1 m ρ c (Proc.devRef .tc main_arg9) = W0 m ρ c (Proc.devRef .tc main_arg9) from by keep_host hostOps0)))).trans rfl
theorem arg10_at6 (c : Dev nD) : W6 m ρ c (Proc.devRef .tc main_arg10) = m ((c : Thread nD τ).loc main_arg10) :=
  ((W6_of_ne m ρ c main_arg10 (by decide)).trans ((show W5 m ρ c (Proc.devRef .tc main_arg10) = W4 m ρ c (Proc.devRef .tc main_arg10) from by keep_host hostOps2).trans ((W4_of_ne m ρ c main_arg10 (by decide)).trans ((show W3 m ρ c (Proc.devRef .tc main_arg10) = W2 m ρ c (Proc.devRef .tc main_arg10) from by keep_host hostOps1).trans ((W2_of_ne m ρ c main_arg10 (by decide)).trans (show W1 m ρ c (Proc.devRef .tc main_arg10) = W0 m ρ c (Proc.devRef .tc main_arg10) from by keep_host hostOps0)))))).trans rfl
theorem arg11_at6 (c : Dev nD) : W6 m ρ c (Proc.devRef .tc main_arg11) = m ((c : Thread nD τ).loc main_arg11) :=
  ((W6_of_ne m ρ c main_arg11 (by decide)).trans ((show W5 m ρ c (Proc.devRef .tc main_arg11) = W4 m ρ c (Proc.devRef .tc main_arg11) from by keep_host hostOps2).trans ((W4_of_ne m ρ c main_arg11 (by decide)).trans ((show W3 m ρ c (Proc.devRef .tc main_arg11) = W2 m ρ c (Proc.devRef .tc main_arg11) from by keep_host hostOps1).trans ((W2_of_ne m ρ c main_arg11 (by decide)).trans (show W1 m ρ c (Proc.devRef .tc main_arg11) = W0 m ρ c (Proc.devRef .tc main_arg11) from by keep_host hostOps0)))))).trans rfl
theorem arg12_at8 (c : Dev nD) : W8 m ρ c (Proc.devRef .tc main_arg12) = m ((c : Thread nD τ).loc main_arg12) :=
  ((W8_of_ne m ρ c main_arg12 (by decide)).trans ((show W7 m ρ c (Proc.devRef .tc main_arg12) = W6 m ρ c (Proc.devRef .tc main_arg12) from by keep_host hostOps3).trans ((W6_of_ne m ρ c main_arg12 (by decide)).trans ((show W5 m ρ c (Proc.devRef .tc main_arg12) = W4 m ρ c (Proc.devRef .tc main_arg12) from by keep_host hostOps2).trans ((W4_of_ne m ρ c main_arg12 (by decide)).trans ((show W3 m ρ c (Proc.devRef .tc main_arg12) = W2 m ρ c (Proc.devRef .tc main_arg12) from by keep_host hostOps1).trans ((W2_of_ne m ρ c main_arg12 (by decide)).trans (show W1 m ρ c (Proc.devRef .tc main_arg12) = W0 m ρ c (Proc.devRef .tc main_arg12) from by keep_host hostOps0)))))))).trans rfl
theorem arg13_at8 (c : Dev nD) : W8 m ρ c (Proc.devRef .tc main_arg13) = m ((c : Thread nD τ).loc main_arg13) :=
  ((W8_of_ne m ρ c main_arg13 (by decide)).trans ((show W7 m ρ c (Proc.devRef .tc main_arg13) = W6 m ρ c (Proc.devRef .tc main_arg13) from by keep_host hostOps3).trans ((W6_of_ne m ρ c main_arg13 (by decide)).trans ((show W5 m ρ c (Proc.devRef .tc main_arg13) = W4 m ρ c (Proc.devRef .tc main_arg13) from by keep_host hostOps2).trans ((W4_of_ne m ρ c main_arg13 (by decide)).trans ((show W3 m ρ c (Proc.devRef .tc main_arg13) = W2 m ρ c (Proc.devRef .tc main_arg13) from by keep_host hostOps1).trans ((W2_of_ne m ρ c main_arg13 (by decide)).trans (show W1 m ρ c (Proc.devRef .tc main_arg13) = W0 m ρ c (Proc.devRef .tc main_arg13) from by keep_host hostOps0)))))))).trans rfl
theorem arg14_at8 (c : Dev nD) : W8 m ρ c (Proc.devRef .tc main_arg14) = m ((c : Thread nD τ).loc main_arg14) :=
  ((W8_of_ne m ρ c main_arg14 (by decide)).trans ((show W7 m ρ c (Proc.devRef .tc main_arg14) = W6 m ρ c (Proc.devRef .tc main_arg14) from by keep_host hostOps3).trans ((W6_of_ne m ρ c main_arg14 (by decide)).trans ((show W5 m ρ c (Proc.devRef .tc main_arg14) = W4 m ρ c (Proc.devRef .tc main_arg14) from by keep_host hostOps2).trans ((W4_of_ne m ρ c main_arg14 (by decide)).trans ((show W3 m ρ c (Proc.devRef .tc main_arg14) = W2 m ρ c (Proc.devRef .tc main_arg14) from by keep_host hostOps1).trans ((W2_of_ne m ρ c main_arg14 (by decide)).trans (show W1 m ρ c (Proc.devRef .tc main_arg14) = W0 m ρ c (Proc.devRef .tc main_arg14) from by keep_host hostOps0)))))))).trans rfl
theorem arg15_at10 (c : Dev nD) : W10 m ρ c (Proc.devRef .tc main_arg15) = m ((c : Thread nD τ).loc main_arg15) :=
  ((W10_of_ne m ρ c main_arg15 (by decide)).trans ((show W9 m ρ c (Proc.devRef .tc main_arg15) = W8 m ρ c (Proc.devRef .tc main_arg15) from by keep_host hostOps4).trans ((W8_of_ne m ρ c main_arg15 (by decide)).trans ((show W7 m ρ c (Proc.devRef .tc main_arg15) = W6 m ρ c (Proc.devRef .tc main_arg15) from by keep_host hostOps3).trans ((W6_of_ne m ρ c main_arg15 (by decide)).trans ((show W5 m ρ c (Proc.devRef .tc main_arg15) = W4 m ρ c (Proc.devRef .tc main_arg15) from by keep_host hostOps2).trans ((W4_of_ne m ρ c main_arg15 (by decide)).trans ((show W3 m ρ c (Proc.devRef .tc main_arg15) = W2 m ρ c (Proc.devRef .tc main_arg15) from by keep_host hostOps1).trans ((W2_of_ne m ρ c main_arg15 (by decide)).trans (show W1 m ρ c (Proc.devRef .tc main_arg15) = W0 m ρ c (Proc.devRef .tc main_arg15) from by keep_host hostOps0)))))))))).trans rfl
theorem arg16_at10 (c : Dev nD) : W10 m ρ c (Proc.devRef .tc main_arg16) = m ((c : Thread nD τ).loc main_arg16) :=
  ((W10_of_ne m ρ c main_arg16 (by decide)).trans ((show W9 m ρ c (Proc.devRef .tc main_arg16) = W8 m ρ c (Proc.devRef .tc main_arg16) from by keep_host hostOps4).trans ((W8_of_ne m ρ c main_arg16 (by decide)).trans ((show W7 m ρ c (Proc.devRef .tc main_arg16) = W6 m ρ c (Proc.devRef .tc main_arg16) from by keep_host hostOps3).trans ((W6_of_ne m ρ c main_arg16 (by decide)).trans ((show W5 m ρ c (Proc.devRef .tc main_arg16) = W4 m ρ c (Proc.devRef .tc main_arg16) from by keep_host hostOps2).trans ((W4_of_ne m ρ c main_arg16 (by decide)).trans ((show W3 m ρ c (Proc.devRef .tc main_arg16) = W2 m ρ c (Proc.devRef .tc main_arg16) from by keep_host hostOps1).trans ((W2_of_ne m ρ c main_arg16 (by decide)).trans (show W1 m ρ c (Proc.devRef .tc main_arg16) = W0 m ρ c (Proc.devRef .tc main_arg16) from by keep_host hostOps0)))))))))).trans rfl

/-! ## The first stretch: the edge list's rows, the degrees, the first aggregation, the first layer's weights -/

theorem src_at1 (c : Dev nD) : W1 m ρ c (Proc.devRef .tc main_v1) = srcOf (m ((c : Thread nD τ).loc main_arg1)) := by
  show StableHlo.after hostOps0 (W0 m ρ c) (Proc.devRef .tc main_v1) = _
  dsimp only [hostOps0]; after_results_simp; rfl
theorem dst_at1 (c : Dev nD) : W1 m ρ c (Proc.devRef .tc main_v3) = dstOf (m ((c : Thread nD τ).loc main_arg1)) := by
  show StableHlo.after hostOps0 (W0 m ρ c) (Proc.devRef .tc main_v3) = _
  dsimp only [hostOps0]; after_results_simp; rfl
theorem deg_at1 (c : Dev nD) : W1 m ρ c (Proc.devRef .tc main_v10) = degOf (dstOf (m ((c : Thread nD τ).loc main_arg1))) := by
  show StableHlo.after hostOps0 (W0 m ρ c) (Proc.devRef .tc main_v10) = _
  dsimp only [hostOps0]; after_results_simp; rfl
theorem agg_at1 (c : Dev nD) : W1 m ρ c (Proc.devRef .tc main_v22) = agg128 (m ((c : Thread nD τ).loc main_arg0)) (srcOf (m ((c : Thread nD τ).loc main_arg1))) (dstOf (m ((c : Thread nD τ).loc main_arg1))) (degOf (dstOf (m ((c : Thread nD τ).loc main_arg1)))) := by
  show StableHlo.after hostOps0 (W0 m ρ c) (Proc.devRef .tc main_v22) = _
  dsimp only [hostOps0]; after_results_simp; rfl
theorem wl_at1 (c : Dev nD) : W1 m ρ c (Proc.devRef .tc main_v23) = tr128 (m ((c : Thread nD τ).loc main_arg2)) := by
  show StableHlo.after hostOps0 (W0 m ρ c) (Proc.devRef .tc main_v23) = _
  dsimp only [hostOps0]; after_results_simp; rfl
theorem wr_at1 (c : Dev nD) : W1 m ρ c (Proc.devRef .tc main_v24) = tr128 (m ((c : Thread nD τ).loc main_arg4)) := by
  show StableHlo.after hostOps0 (W0 m ρ c) (Proc.devRef .tc main_v24) = _
  dsimp only [hostOps0]; after_results_simp; rfl
theorem bl_at1 (c : Dev nD) : W1 m ρ c (Proc.devRef .tc main_v25) = asRow (m ((c : Thread nD τ).loc main_arg3)) := by
  show StableHlo.after hostOps0 (W0 m ρ c) (Proc.devRef .tc main_v25) = _
  dsimp only [hostOps0]; after_results_simp; rfl

/-! ## Layer 1 -/

/-- The layer's linear map, at the boundary after its region. -/
theorem lin0 (c : Dev nD) : W2 m ρ c (Proc.devRef .tc main_v26) = (Spec.lin (agg128 (m ((c : Thread nD τ).loc main_arg0)) (srcOf (m ((c : Thread nD τ).loc main_arg1))) (dstOf (m ((c : Thread nD τ).loc main_arg1))) (degOf (dstOf (m ((c : Thread nD τ).loc main_arg1))))) (m ((c : Thread nD τ).loc main_arg0)) (tr128 (m ((c : Thread nD τ).loc main_arg2))) (tr128 (m ((c : Thread nD τ).loc main_arg4))) (asRow (m ((c : Thread nD τ).loc main_arg3)))) := by
  refine ((W2_arr m ρ c 5).trans (final0 (V1 m ρ) c)).trans ?_
  show Spec.lin (W1 m ρ c (Proc.devRef .tc main_v22)) (W1 m ρ c (Proc.devRef .tc main_arg0)) (W1 m ρ c (Proc.devRef .tc main_v23)) (W1 m ρ c (Proc.devRef .tc main_v24)) (W1 m ρ c (Proc.devRef .tc main_v25)) = _
  rw [agg_at1, arg0_at1, wl_at1, wr_at1, bl_at1]
theorem mu_at3 (c : Dev nD) : W3 m ρ c (Proc.devRef .tc main_v37) = asRow (colMean (W2 m ρ c (Proc.devRef .tc main_v26))) := by
  show StableHlo.after hostOps1 (W2 m ρ c) (Proc.devRef .tc main_v37) = _
  dsimp only [hostOps1]; after_results_simp; rfl
theorem var_at3 (c : Dev nD) : W3 m ρ c (Proc.devRef .tc main_v38) = asRow (colVar (W2 m ρ c (Proc.devRef .tc main_v26)) (colMean (W2 m ρ c (Proc.devRef .tc main_v26)))) := by
  show StableHlo.after hostOps1 (W2 m ρ c) (Proc.devRef .tc main_v38) = _
  dsimp only [hostOps1]; after_results_simp; rfl
theorem g_at3 (c : Dev nD) : W3 m ρ c (Proc.devRef .tc main_v39) = asRow (W2 m ρ c (Proc.devRef .tc main_arg5)) := by
  show StableHlo.after hostOps1 (W2 m ρ c) (Proc.devRef .tc main_v39) = _
  dsimp only [hostOps1]; after_results_simp; rfl
theorem b_at3 (c : Dev nD) : W3 m ρ c (Proc.devRef .tc main_v40) = asRow (W2 m ρ c (Proc.devRef .tc main_arg6)) := by
  show StableHlo.after hostOps1 (W2 m ρ c) (Proc.devRef .tc main_v40) = _
  dsimp only [hostOps1]; after_results_simp; rfl
theorem y_at3 (c : Dev nD) : W3 m ρ c (Proc.devRef .tc main_v26) = W2 m ρ c (Proc.devRef .tc main_v26) := by keep_host hostOps1
/-- The layer's output, at the boundary after its normalisation region. -/
theorem out0 (c : Dev nD) : W4 m ρ c (Proc.devRef .tc main_v41) = (layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine ((W4_arr m ρ c 5).trans (final1 (V3 m ρ) c)).trans ?_
  show Spec.normRelu (W3 m ρ c (Proc.devRef .tc main_v26)) (W3 m ρ c (Proc.devRef .tc main_v37)) (W3 m ρ c (Proc.devRef .tc main_v38)) (W3 m ρ c (Proc.devRef .tc main_v39)) (W3 m ρ c (Proc.devRef .tc main_v40)) = _
  rw [y_at3, mu_at3, var_at3, g_at3, b_at3, arg5_at2, arg6_at2, lin0]
  rfl

/-! ## Layer 2 -/

theorem src_at4 (c : Dev nD) : W4 m ρ c (Proc.devRef .tc main_v1) = srcOf (m ((c : Thread nD τ).loc main_arg1)) :=
  ((W4_of_ne m ρ c main_v1 (by decide)).trans ((show W3 m ρ c (Proc.devRef .tc main_v1) = W2 m ρ c (Proc.devRef .tc main_v1) from by keep_host hostOps1).trans (W2_of_ne m ρ c main_v1 (by decide)))).trans (src_at1 m ρ c)
theorem dst_at4 (c : Dev nD) : W4 m ρ c (Proc.devRef .tc main_v3) = dstOf (m ((c : Thread nD τ).loc main_arg1)) :=
  ((W4_of_ne m ρ c main_v3 (by decide)).trans ((show W3 m ρ c (Proc.devRef .tc main_v3) = W2 m ρ c (Proc.devRef .tc main_v3) from by keep_host hostOps1).trans (W2_of_ne m ρ c main_v3 (by decide)))).trans (dst_at1 m ρ c)
theorem deg_at4 (c : Dev nD) : W4 m ρ c (Proc.devRef .tc main_v10) = degOf (dstOf (m ((c : Thread nD τ).loc main_arg1))) :=
  ((W4_of_ne m ρ c main_v10 (by decide)).trans ((show W3 m ρ c (Proc.devRef .tc main_v10) = W2 m ρ c (Proc.devRef .tc main_v10) from by keep_host hostOps1).trans (W2_of_ne m ρ c main_v10 (by decide)))).trans (deg_at1 m ρ c)
theorem agg_at5 (c : Dev nD) : W5 m ρ c (Proc.devRef .tc main_v53) = agg256 (W4 m ρ c (Proc.devRef .tc main_v41)) (W4 m ρ c (Proc.devRef .tc main_v1)) (W4 m ρ c (Proc.devRef .tc main_v3)) (W4 m ρ c (Proc.devRef .tc main_v10)) := by
  show StableHlo.after hostOps2 (W4 m ρ c) (Proc.devRef .tc main_v53) = _
  dsimp only [hostOps2]; after_results_simp; rfl
theorem wl_at5 (c : Dev nD) : W5 m ρ c (Proc.devRef .tc main_v54) = tr256 (W4 m ρ c (Proc.devRef .tc main_arg7)) := by
  show StableHlo.after hostOps2 (W4 m ρ c) (Proc.devRef .tc main_v54) = _
  dsimp only [hostOps2]; after_results_simp; rfl
theorem wr_at5 (c : Dev nD) : W5 m ρ c (Proc.devRef .tc main_v55) = tr256 (W4 m ρ c (Proc.devRef .tc main_arg9)) := by
  show StableHlo.after hostOps2 (W4 m ρ c) (Proc.devRef .tc main_v55) = _
  dsimp only [hostOps2]; after_results_simp; rfl
theorem bl_at5 (c : Dev nD) : W5 m ρ c (Proc.devRef .tc main_v56) = asRow (W4 m ρ c (Proc.devRef .tc main_arg8)) := by
  show StableHlo.after hostOps2 (W4 m ρ c) (Proc.devRef .tc main_v56) = _
  dsimp only [hostOps2]; after_results_simp; rfl
theorem h_at5 (c : Dev nD) : W5 m ρ c (Proc.devRef .tc main_v41) = W4 m ρ c (Proc.devRef .tc main_v41) := by keep_host hostOps2
/-- The layer's linear map, at the boundary after its region. -/
theorem lin1 (c : Dev nD) : W6 m ρ c (Proc.devRef .tc main_v57) = (Spec.lin (agg256 (layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (srcOf (m ((c : Thread nD τ).loc main_arg1))) (dstOf (m ((c : Thread nD τ).loc main_arg1))) (degOf (dstOf (m ((c : Thread nD τ).loc main_arg1))))) (layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (tr256 (m ((c : Thread nD τ).loc main_arg7))) (tr256 (m ((c : Thread nD τ).loc main_arg9))) (asRow (m ((c : Thread nD τ).loc main_arg8)))) := by
  refine ((W6_arr m ρ c 5).trans (final2 (V5 m ρ) c)).trans ?_
  show Spec.lin (W5 m ρ c (Proc.devRef .tc main_v53)) (W5 m ρ c (Proc.devRef .tc main_v41)) (W5 m ρ c (Proc.devRef .tc main_v54)) (W5 m ρ c (Proc.devRef .tc main_v55)) (W5 m ρ c (Proc.devRef .tc main_v56)) = _
  rw [agg_at5, h_at5, wl_at5, wr_at5, bl_at5, src_at4, dst_at4, deg_at4, arg7_at4, arg9_at4, arg8_at4, out0]
theorem mu_at7 (c : Dev nD) : W7 m ρ c (Proc.devRef .tc main_v68) = asRow (colMean (W6 m ρ c (Proc.devRef .tc main_v57))) := by
  show StableHlo.after hostOps3 (W6 m ρ c) (Proc.devRef .tc main_v68) = _
  dsimp only [hostOps3]; after_results_simp; rfl
theorem var_at7 (c : Dev nD) : W7 m ρ c (Proc.devRef .tc main_v69) = asRow (colVar (W6 m ρ c (Proc.devRef .tc main_v57)) (colMean (W6 m ρ c (Proc.devRef .tc main_v57)))) := by
  show StableHlo.after hostOps3 (W6 m ρ c) (Proc.devRef .tc main_v69) = _
  dsimp only [hostOps3]; after_results_simp; rfl
theorem g_at7 (c : Dev nD) : W7 m ρ c (Proc.devRef .tc main_v70) = asRow (W6 m ρ c (Proc.devRef .tc main_arg10)) := by
  show StableHlo.after hostOps3 (W6 m ρ c) (Proc.devRef .tc main_v70) = _
  dsimp only [hostOps3]; after_results_simp; rfl
theorem b_at7 (c : Dev nD) : W7 m ρ c (Proc.devRef .tc main_v71) = asRow (W6 m ρ c (Proc.devRef .tc main_arg11)) := by
  show StableHlo.after hostOps3 (W6 m ρ c) (Proc.devRef .tc main_v71) = _
  dsimp only [hostOps3]; after_results_simp; rfl
theorem y_at7 (c : Dev nD) : W7 m ρ c (Proc.devRef .tc main_v57) = W6 m ρ c (Proc.devRef .tc main_v57) := by keep_host hostOps3
/-- The layer's output, at the boundary after its normalisation region. -/
theorem out1 (c : Dev nD) : W8 m ρ c (Proc.devRef .tc main_v72) = (layerMid (layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11))) := by
  refine ((W8_arr m ρ c 5).trans (final3 (V7 m ρ) c)).trans ?_
  show Spec.normRelu (W7 m ρ c (Proc.devRef .tc main_v57)) (W7 m ρ c (Proc.devRef .tc main_v68)) (W7 m ρ c (Proc.devRef .tc main_v69)) (W7 m ρ c (Proc.devRef .tc main_v70)) (W7 m ρ c (Proc.devRef .tc main_v71)) = _
  rw [y_at7, mu_at7, var_at7, g_at7, b_at7, arg10_at6, arg11_at6, lin1]
  rfl

/-! ## Layer 3 -/

theorem src_at8 (c : Dev nD) : W8 m ρ c (Proc.devRef .tc main_v1) = srcOf (m ((c : Thread nD τ).loc main_arg1)) :=
  ((W8_of_ne m ρ c main_v1 (by decide)).trans ((show W7 m ρ c (Proc.devRef .tc main_v1) = W6 m ρ c (Proc.devRef .tc main_v1) from by keep_host hostOps3).trans ((W6_of_ne m ρ c main_v1 (by decide)).trans ((show W5 m ρ c (Proc.devRef .tc main_v1) = W4 m ρ c (Proc.devRef .tc main_v1) from by keep_host hostOps2).trans ((W4_of_ne m ρ c main_v1 (by decide)).trans ((show W3 m ρ c (Proc.devRef .tc main_v1) = W2 m ρ c (Proc.devRef .tc main_v1) from by keep_host hostOps1).trans (W2_of_ne m ρ c main_v1 (by decide)))))))).trans (src_at1 m ρ c)
theorem dst_at8 (c : Dev nD) : W8 m ρ c (Proc.devRef .tc main_v3) = dstOf (m ((c : Thread nD τ).loc main_arg1)) :=
  ((W8_of_ne m ρ c main_v3 (by decide)).trans ((show W7 m ρ c (Proc.devRef .tc main_v3) = W6 m ρ c (Proc.devRef .tc main_v3) from by keep_host hostOps3).trans ((W6_of_ne m ρ c main_v3 (by decide)).trans ((show W5 m ρ c (Proc.devRef .tc main_v3) = W4 m ρ c (Proc.devRef .tc main_v3) from by keep_host hostOps2).trans ((W4_of_ne m ρ c main_v3 (by decide)).trans ((show W3 m ρ c (Proc.devRef .tc main_v3) = W2 m ρ c (Proc.devRef .tc main_v3) from by keep_host hostOps1).trans (W2_of_ne m ρ c main_v3 (by decide)))))))).trans (dst_at1 m ρ c)
theorem deg_at8 (c : Dev nD) : W8 m ρ c (Proc.devRef .tc main_v10) = degOf (dstOf (m ((c : Thread nD τ).loc main_arg1))) :=
  ((W8_of_ne m ρ c main_v10 (by decide)).trans ((show W7 m ρ c (Proc.devRef .tc main_v10) = W6 m ρ c (Proc.devRef .tc main_v10) from by keep_host hostOps3).trans ((W6_of_ne m ρ c main_v10 (by decide)).trans ((show W5 m ρ c (Proc.devRef .tc main_v10) = W4 m ρ c (Proc.devRef .tc main_v10) from by keep_host hostOps2).trans ((W4_of_ne m ρ c main_v10 (by decide)).trans ((show W3 m ρ c (Proc.devRef .tc main_v10) = W2 m ρ c (Proc.devRef .tc main_v10) from by keep_host hostOps1).trans (W2_of_ne m ρ c main_v10 (by decide)))))))).trans (deg_at1 m ρ c)
theorem agg_at9 (c : Dev nD) : W9 m ρ c (Proc.devRef .tc main_v84) = agg256 (W8 m ρ c (Proc.devRef .tc main_v72)) (W8 m ρ c (Proc.devRef .tc main_v1)) (W8 m ρ c (Proc.devRef .tc main_v3)) (W8 m ρ c (Proc.devRef .tc main_v10)) := by
  show StableHlo.after hostOps4 (W8 m ρ c) (Proc.devRef .tc main_v84) = _
  dsimp only [hostOps4]; after_results_simp; rfl
theorem wl_at9 (c : Dev nD) : W9 m ρ c (Proc.devRef .tc main_v85) = tr256 (W8 m ρ c (Proc.devRef .tc main_arg12)) := by
  show StableHlo.after hostOps4 (W8 m ρ c) (Proc.devRef .tc main_v85) = _
  dsimp only [hostOps4]; after_results_simp; rfl
theorem wr_at9 (c : Dev nD) : W9 m ρ c (Proc.devRef .tc main_v86) = tr256 (W8 m ρ c (Proc.devRef .tc main_arg14)) := by
  show StableHlo.after hostOps4 (W8 m ρ c) (Proc.devRef .tc main_v86) = _
  dsimp only [hostOps4]; after_results_simp; rfl
theorem bl_at9 (c : Dev nD) : W9 m ρ c (Proc.devRef .tc main_v87) = asRow (W8 m ρ c (Proc.devRef .tc main_arg13)) := by
  show StableHlo.after hostOps4 (W8 m ρ c) (Proc.devRef .tc main_v87) = _
  dsimp only [hostOps4]; after_results_simp; rfl
theorem h_at9 (c : Dev nD) : W9 m ρ c (Proc.devRef .tc main_v72) = W8 m ρ c (Proc.devRef .tc main_v72) := by keep_host hostOps4
/-- The layer's linear map, at the boundary after its region. -/
theorem lin2 (c : Dev nD) : W10 m ρ c (Proc.devRef .tc main_v88) = (Spec.lin (agg256 (layerMid (layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11))) (srcOf (m ((c : Thread nD τ).loc main_arg1))) (dstOf (m ((c : Thread nD τ).loc main_arg1))) (degOf (dstOf (m ((c : Thread nD τ).loc main_arg1))))) (layerMid (layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11))) (tr256 (m ((c : Thread nD τ).loc main_arg12))) (tr256 (m ((c : Thread nD τ).loc main_arg14))) (asRow (m ((c : Thread nD τ).loc main_arg13)))) := by
  refine ((W10_arr m ρ c 5).trans (final4 (V9 m ρ) c)).trans ?_
  show Spec.lin (W9 m ρ c (Proc.devRef .tc main_v84)) (W9 m ρ c (Proc.devRef .tc main_v72)) (W9 m ρ c (Proc.devRef .tc main_v85)) (W9 m ρ c (Proc.devRef .tc main_v86)) (W9 m ρ c (Proc.devRef .tc main_v87)) = _
  rw [agg_at9, h_at9, wl_at9, wr_at9, bl_at9, src_at8, dst_at8, deg_at8, arg12_at8, arg14_at8, arg13_at8, out1]
theorem mu_at11 (c : Dev nD) : W11 m ρ c (Proc.devRef .tc main_v99) = asRow (colMean (W10 m ρ c (Proc.devRef .tc main_v88))) := by
  show StableHlo.after hostOps5 (W10 m ρ c) (Proc.devRef .tc main_v99) = _
  dsimp only [hostOps5]; after_results_simp; rfl
theorem var_at11 (c : Dev nD) : W11 m ρ c (Proc.devRef .tc main_v100) = asRow (colVar (W10 m ρ c (Proc.devRef .tc main_v88)) (colMean (W10 m ρ c (Proc.devRef .tc main_v88)))) := by
  show StableHlo.after hostOps5 (W10 m ρ c) (Proc.devRef .tc main_v100) = _
  dsimp only [hostOps5]; after_results_simp; rfl
theorem g_at11 (c : Dev nD) : W11 m ρ c (Proc.devRef .tc main_v101) = asRow (W10 m ρ c (Proc.devRef .tc main_arg15)) := by
  show StableHlo.after hostOps5 (W10 m ρ c) (Proc.devRef .tc main_v101) = _
  dsimp only [hostOps5]; after_results_simp; rfl
theorem b_at11 (c : Dev nD) : W11 m ρ c (Proc.devRef .tc main_v102) = asRow (W10 m ρ c (Proc.devRef .tc main_arg16)) := by
  show StableHlo.after hostOps5 (W10 m ρ c) (Proc.devRef .tc main_v102) = _
  dsimp only [hostOps5]; after_results_simp; rfl
theorem y_at11 (c : Dev nD) : W11 m ρ c (Proc.devRef .tc main_v88) = W10 m ρ c (Proc.devRef .tc main_v88) := by keep_host hostOps5
/-- The layer's output, at the boundary after its normalisation region. -/
theorem out2 (c : Dev nD) : W12 m ρ c (Proc.devRef .tc main_v103) = (layerLast (layerMid (layer0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg1)) (m ((c : Thread nD τ).loc main_arg12)) (m ((c : Thread nD τ).loc main_arg13)) (m ((c : Thread nD τ).loc main_arg14)) (m ((c : Thread nD τ).loc main_arg15)) (m ((c : Thread nD τ).loc main_arg16))) := by
  refine ((W12_arr m ρ c 5).trans (final5 (V11 m ρ) c)).trans ?_
  show Spec.norm (W11 m ρ c (Proc.devRef .tc main_v88)) (W11 m ρ c (Proc.devRef .tc main_v99)) (W11 m ρ c (Proc.devRef .tc main_v100)) (W11 m ρ c (Proc.devRef .tc main_v101)) (W11 m ρ c (Proc.devRef .tc main_v102)) = _
  rw [y_at11, mu_at11, var_at11, g_at11, b_at11, arg15_at10, arg16_at10, lin2]
  rfl

/-! ## The result -/

/-- The three layers composed, as a function of the seventeen arguments. -/
def net (x : Arr Ideal S50000x128 .f32) (ei : Arr Ideal S2x800000 .i32)
    (wl0 : Arr Ideal S256x128 .f32) (bl0 : Arr Ideal S256 .f32) (wr0 : Arr Ideal S256x128 .f32) (g0 b0 : Arr Ideal S256 .f32)
    (wl1 : Arr Ideal S256x256 .f32) (bl1 : Arr Ideal S256 .f32) (wr1 : Arr Ideal S256x256 .f32) (g1 b1 : Arr Ideal S256 .f32)
    (wl2 : Arr Ideal S256x256 .f32) (bl2 : Arr Ideal S256 .f32) (wr2 : Arr Ideal S256x256 .f32) (g2 b2 : Arr Ideal S256 .f32) :
    Arr Ideal S50000x256 .f32 :=
  layerLast (layerMid (layer0 x ei wl0 bl0 wr0 g0 b0) ei wl1 bl1 wr1 g1 b1) ei wl2 bl2 wr2 g2 b2

/-- THE KERNEL'S RESULT at the last boundary is the network of the arguments as launched. -/
theorem result (c : Dev nD) : W12 m ρ c (Proc.devRef .tc main_v103) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  out2 m ρ c

end Cert.KernelIdeal.Val

end
-- ==== Proof.RefFns.lean ====
/-
  The reference's own stages, as it spells them, and its layers.

  Where the kernel launches a region the reference has host operations:
  * the linear map: the aggregated features times the transposed neighbour weights (one whole [50000, K] × [K, 256]
    product), plus the bias down the rows, plus the input times the transposed root weights;
  * the normalisation: centre by the column means, scale by the reciprocal root of the column variances plus ε, then
    the affine map, each length-256 vector broadcast down the 50000 rows; and, in the first two layers, the maximum
    with zero.
  The aggregation and the column statistics are the stages both programs share (`agg`, `colMean`, `colVar`).
-/
import proofs.«113280_j64192581206427_1_alg».proof.ReferenceIdeal
import proofs.«113280_j64192581206427_1_alg».proof.Proof.HostFns
import Idealize.ShloMosaic.PureOps.Ideal

noncomputable section

namespace Cert.ReferenceIdeal.RefVal

open Cert.ReferenceIdeal Idealize.ShloMosaic Idealize.ShloMosaic.TcCoe Idealize.SL.Sem
open Cert.KernelIdeal.Val (Arr)

variable {F : FTy → Type} [FloatOps F] [Cert.ReferenceIdeal.Facts] [Cert.KernelIdeal.Facts]
open Cert.ReferenceIdeal.Facts₀ Cert.ReferenceIdeal.Facts

/-- A length-256 vector down the 50000 rows, as the reference spells it. -/
def down (v : Arr F S256 .f32) : Arr F S50000x256 .f32 :=
  broadcastInDim S50000x256 ![0, 1] bcast_S1x256_S50000x256_0_1 (broadcastInDim S1x256 ![1] bcast_S256_S1x256_1 v)

def lin128 (a x : Arr F S50000x128 .f32) (wl : Arr F S256x128 .f32) (bl : Arr F S256 .f32) (wr : Arr F S256x128 .f32) :
    Arr F S50000x256 .f32 :=
  addf (addf (Host.dotGeneral dot_S50000x128_S128x256_S50000x256_1_0_0_1_n_n none a (transpose S128x256 [1, 0] wl transposes_S256x128_S128x256_1_0)) (down bl))
    (Host.dotGeneral dot_S50000x128_S128x256_S50000x256_1_0_0_1_n_n none x (transpose S128x256 [1, 0] wr transposes_S256x128_S128x256_1_0))

def lin256 (a x : Arr F S50000x256 .f32) (wl : Arr F S256x256 .f32) (bl : Arr F S256 .f32) (wr : Arr F S256x256 .f32) :
    Arr F S50000x256 .f32 :=
  addf (addf (Host.dotGeneral dot_S50000x256_S256x256_S50000x256_1_0_0_1_n_n none a (transpose S256x256 [1, 0] wl transposes_S256x256_S256x256_1_0)) (down bl))
    (Host.dotGeneral dot_S50000x256_S256x256_S50000x256_1_0_0_1_n_n none x (transpose S256x256 [1, 0] wr transposes_S256x256_S256x256_1_0))

def normalize (y : Arr F S50000x256 .f32) (mu var g b : Arr F S256 .f32) : Arr F S50000x256 .f32 :=
  addf (mulf (mulf (subf y (down mu))
      (down (Host.rsqrt (addf var (broadcastInDim S256 ![] bcast_S_S256 (constant S_ .f32 0x3727C5AC#32))))))
    (down g)) (down b)

def relu (v : Arr F S50000x256 .f32) : Arr F S50000x256 .f32 :=
  maximumf v (broadcastInDim S50000x256 ![] bcast_S_S50000x256 (constant S_ .f32 0x00000000#32))

/-! ## The reference's layers -/

/-- From a layer's linear output: its column statistics, the normalisation by them, the maximum with zero. -/
def post (y : Arr F S50000x256 .f32) (g b : Arr F S256 .f32) : Arr F S50000x256 .f32 :=
  relu (normalize y (Cert.KernelIdeal.Val.colMean y) (Cert.KernelIdeal.Val.colVar y (Cert.KernelIdeal.Val.colMean y)) g b)

/-- The same without the maximum (the last layer). -/
def postLast (y : Arr F S50000x256 .f32) (g b : Arr F S256 .f32) : Arr F S50000x256 .f32 :=
  normalize y (Cert.KernelIdeal.Val.colMean y) (Cert.KernelIdeal.Val.colVar y (Cert.KernelIdeal.Val.colMean y)) g b

def layer0 (x : Arr F S50000x128 .f32) (src dst : Arr F S800000 .i32) (deg : Arr F S50000x1 .f32) (wl : Arr F S256x128 .f32)
    (bl : Arr F S256 .f32) (wr : Arr F S256x128 .f32) (g b : Arr F S256 .f32) : Arr F S50000x256 .f32 :=
  post (lin128 (Cert.KernelIdeal.Val.agg128 x src dst deg) x wl bl wr) g b

def layerMid (h : Arr F S50000x256 .f32) (src dst : Arr F S800000 .i32) (deg : Arr F S50000x1 .f32) (wl : Arr F S256x256 .f32)
    (bl : Arr F S256 .f32) (wr : Arr F S256x256 .f32) (g b : Arr F S256 .f32) : Arr F S50000x256 .f32 :=
  post (lin256 (Cert.KernelIdeal.Val.agg256 h src dst deg) h wl bl wr) g b

def layerLast (h : Arr F S50000x256 .f32) (src dst : Arr F S800000 .i32) (deg : Arr F S50000x1 .f32) (wl : Arr F S256x256 .f32)
    (bl : Arr F S256 .f32) (wr : Arr F S256x256 .f32) (g b : Arr F S256 .f32) : Arr F S50000x256 .f32 :=
  postLast (lin256 (Cert.KernelIdeal.Val.agg256 h src dst deg) h wl bl wr) g b

end Cert.ReferenceIdeal.RefVal

end
-- ==== Proof.RefRun.lean ====
/-
  The reference's run, stage by stage.

  The reference is one straight line of 179 host operations, read here in six parts: per layer, the operations up to
  the linear map's output (37, 23 and 23 of them), then those up to the layer's output (33, 33 and 30).  The buffers after a line of operations are
  the buffers after its first part, then its second (`after_split`).  Each part is read from an ARBITRARY starting
  valuation: its output is the reference's stage function of the buffers it reads, and the buffers later parts read are
  carried through.  Composed, the result is the three reference layers of the arguments; the arguments themselves are
  written by no operation.
-/
import proofs.«113280_j64192581206427_1_alg».proof.Proof.RefOps
import proofs.«113280_j64192581206427_1_alg».proof.Proof.RefFns
import Idealize.ShloMosaic.Lib.StableHlo.Run

set_option maxRecDepth 16384

noncomputable section

namespace Cert.ReferenceIdeal.RefVal

open Cert.ReferenceIdeal Cert.ReferenceIdeal.Gen Cert.ReferenceIdeal.Value
open Idealize.ShloMosaic Idealize.ShloMosaic.TcCoe Idealize.SL.Sem Idealize.ShloMosaic.StableHlo
open Cert.KernelIdeal.Val (Arr srcOf dstOf degOf)

variable [Cert.KernelIdeal.Facts]

/-- The buffers after a line of operations: after its first part, then its second. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

theorem after_split (n : Nat) (l : List (HloOp τ sig (Elt Ideal))) (V : Valuation τ sig (Elt Ideal)) :
    after l V = after (l.drop n) (after (l.take n) V) := by
  rw [← after_append, List.take_append_drop]

/-! ## The six parts, each from any valuation -/

set_option maxHeartbeats 4000000 in
/-- The first 37 operations: the edge list's rows, the degrees, the first aggregation and the first linear map. -/
theorem stage1 (M : Valuation τ sig (Elt Ideal)) :
    after ((ops (F := Ideal)).take 37) M (Proc.devRef .tc main_v30) = lin128 (Cert.KernelIdeal.Val.agg128 (M (Proc.devRef .tc main_arg0)) (srcOf (M (Proc.devRef .tc main_arg1))) (dstOf (M (Proc.devRef .tc main_arg1))) (degOf (dstOf (M (Proc.devRef .tc main_arg1))))) (M (Proc.devRef .tc main_arg0)) (M (Proc.devRef .tc main_arg2)) (M (Proc.devRef .tc main_arg3)) (M (Proc.devRef .tc main_arg4))
    ∧ after ((ops (F := Ideal)).take 37) M (Proc.devRef .tc main_v1) = srcOf (M (Proc.devRef .tc main_arg1))
    ∧ after ((ops (F := Ideal)).take 37) M (Proc.devRef .tc main_v3) = dstOf (M (Proc.devRef .tc main_arg1))
    ∧ after ((ops (F := Ideal)).take 37) M (Proc.devRef .tc main_v10) = degOf (dstOf (M (Proc.devRef .tc main_arg1)))
    ∧ after ((ops (F := Ideal)).take 37) M (Proc.devRef .tc main_arg5) = M (Proc.devRef .tc main_arg5)
    ∧ after ((ops (F := Ideal)).take 37) M (Proc.devRef .tc main_arg6) = M (Proc.devRef .tc main_arg6)
    ∧ after ((ops (F := Ideal)).take 37) M (Proc.devRef .tc main_arg7) = M (Proc.devRef .tc main_arg7)
    ∧ after ((ops (F := Ideal)).take 37) M (Proc.devRef .tc main_arg8) = M (Proc.devRef .tc main_arg8)
    ∧ after ((ops (F := Ideal)).take 37) M (Proc.devRef .tc main_arg9) = M (Proc.devRef .tc main_arg9)
    ∧ after ((ops (F := Ideal)).take 37) M (Proc.devRef .tc main_arg10) = M (Proc.devRef .tc main_arg10)
    ∧ after ((ops (F := Ideal)).take 37) M (Proc.devRef .tc main_arg11) = M (Proc.devRef .tc main_arg11)
    ∧ after ((ops (F := Ideal)).take 37) M (Proc.devRef .tc main_arg12) = M (Proc.devRef .tc main_arg12)
    ∧ after ((ops (F := Ideal)).take 37) M (Proc.devRef .tc main_arg13) = M (Proc.devRef .tc main_arg13)
    ∧ after ((ops (F := Ideal)).take 37) M (Proc.devRef .tc main_arg14) = M (Proc.devRef .tc main_arg14)
    ∧ after ((ops (F := Ideal)).take 37) M (Proc.devRef .tc main_arg15) = M (Proc.devRef .tc main_arg15)
    ∧ after ((ops (F := Ideal)).take 37) M (Proc.devRef .tc main_arg16) = M (Proc.devRef .tc main_arg16) := by
  simp only [ops, List.take_succ_cons, List.take_zero, List.drop_succ_cons, List.drop_zero]
  refine ⟨?_, ?_, ?_, ?_, ?_, ?_, ?_, ?_, ?_, ?_, ?_, ?_, ?_, ?_, ?_, ?_⟩ <;> (after_results_simp <;> rfl)

set_option maxHeartbeats 4000000 in
/-- The next 33: the first layer's statistics, normalisation and maximum with zero. -/
theorem stage2 (M : Valuation τ sig (Elt Ideal)) :
    after (((ops (F := Ideal)).drop 37).take 33) M (Proc.devRef .tc main_v56) = post (M (Proc.devRef .tc main_v30)) (M (Proc.devRef .tc main_arg5)) (M (Proc.devRef .tc main_arg6))
    ∧ after (((ops (F := Ideal)).drop 37).take 33) M (Proc.devRef .tc main_v1) = M (Proc.devRef .tc main_v1)
    ∧ after (((ops (F := Ideal)).drop 37).take 33) M (Proc.devRef .tc main_v3) = M (Proc.devRef .tc main_v3)
    ∧ after (((ops (F := Ideal)).drop 37).take 33) M (Proc.devRef .tc main_v10) = M (Proc.devRef .tc main_v10)
    ∧ after (((ops (F := Ideal)).drop 37).take 33) M (Proc.devRef .tc main_arg7) = M (Proc.devRef .tc main_arg7)
    ∧ after (((ops (F := Ideal)).drop 37).take 33) M (Proc.devRef .tc main_arg8) = M (Proc.devRef .tc main_arg8)
    ∧ after (((ops (F := Ideal)).drop 37).take 33) M (Proc.devRef .tc main_arg9) = M (Proc.devRef .tc main_arg9)
    ∧ after (((ops (F := Ideal)).drop 37).take 33) M (Proc.devRef .tc main_arg10) = M (Proc.devRef .tc main_arg10)
    ∧ after (((ops (F := Ideal)).drop 37).take 33) M (Proc.devRef .tc main_arg11) = M (Proc.devRef .tc main_arg11)
    ∧ after (((ops (F := Ideal)).drop 37).take 33) M (Proc.devRef .tc main_arg12) = M (Proc.devRef .tc main_arg12)
    ∧ after (((ops (F := Ideal)).drop 37).take 33) M (Proc.devRef .tc main_arg13) = M (Proc.devRef .tc main_arg13)
    ∧ after (((ops (F := Ideal)).drop 37).take 33) M (Proc.devRef .tc main_arg14) = M (Proc.devRef .tc main_arg14)
    ∧ after (((ops (F := Ideal)).drop 37).take 33) M (Proc.devRef .tc main_arg15) = M (Proc.devRef .tc main_arg15)
    ∧ after (((ops (F := Ideal)).drop 37).take 33) M (Proc.devRef .tc main_arg16) = M (Proc.devRef .tc main_arg16) := by
  simp only [ops, List.take_succ_cons, List.take_zero, List.drop_succ_cons, List.drop_zero]
  refine ⟨?_, ?_, ?_, ?_, ?_, ?_, ?_, ?_, ?_, ?_, ?_, ?_, ?_, ?_⟩ <;> (after_results_simp <;> rfl)

set_option maxHeartbeats 4000000 in
/-- The next 23: the second aggregation and linear map. -/
theorem stage3 (M : Valuation τ sig (Elt Ideal)) :
    after ((((ops (F := Ideal)).drop 37).drop 33).take 23) M (Proc.devRef .tc main_v76) = lin256 (Cert.KernelIdeal.Val.agg256 (M (Proc.devRef .tc main_v56)) (M (Proc.devRef .tc main_v1)) (M (Proc.devRef .tc main_v3)) (M (Proc.devRef .tc main_v10))) (M (Proc.devRef .tc main_v56)) (M (Proc.devRef .tc main_arg7)) (M (Proc.devRef .tc main_arg8)) (M (Proc.devRef .tc main_arg9))
    ∧ after ((((ops (F := Ideal)).drop 37).drop 33).take 23) M (Proc.devRef .tc main_v1) = M (Proc.devRef .tc main_v1)
    ∧ after ((((ops (F := Ideal)).drop 37).drop 33).take 23) M (Proc.devRef .tc main_v3) = M (Proc.devRef .tc main_v3)
    ∧ after ((((ops (F := Ideal)).drop 37).drop 33).take 23) M (Proc.devRef .tc main_v10) = M (Proc.devRef .tc main_v10)
    ∧ after ((((ops (F := Ideal)).drop 37).drop 33).take 23) M (Proc.devRef .tc main_arg10) = M (Proc.devRef .tc main_arg10)
    ∧ after ((((ops (F := Ideal)).drop 37).drop 33).take 23) M (Proc.devRef .tc main_arg11) = M (Proc.devRef .tc main_arg11)
    ∧ after ((((ops (F := Ideal)).drop 37).drop 33).take 23) M (Proc.devRef .tc main_arg12) = M (Proc.devRef .tc main_arg12)
    ∧ after ((((ops (F := Ideal)).drop 37).drop 33).take 23) M (Proc.devRef .tc main_arg13) = M (Proc.devRef .tc main_arg13)
    ∧ after ((((ops (F := Ideal)).drop 37).drop 33).take 23) M (Proc.devRef .tc main_arg14) = M (Proc.devRef .tc main_arg14)
    ∧ after ((((ops (F := Ideal)).drop 37).drop 33).take 23) M (Proc.devRef .tc main_arg15) = M (Proc.devRef .tc main_arg15)
    ∧ after ((((ops (F := Ideal)).drop 37).drop 33).take 23) M (Proc.devRef .tc main_arg16) = M (Proc.devRef .tc main_arg16) := by
  simp only [ops, List.take_succ_cons, List.take_zero, List.drop_succ_cons, List.drop_zero]
  refine ⟨?_, ?_, ?_, ?_, ?_, ?_, ?_, ?_, ?_, ?_, ?_⟩ <;> (after_results_simp <;> rfl)

set_option maxHeartbeats 4000000 in
/-- The next 33: the second layer's statistics, normalisation and maximum with zero. -/
theorem stage4 (M : Valuation τ sig (Elt Ideal)) :
    after (((((ops (F := Ideal)).drop 37).drop 33).drop 23).take 33) M (Proc.devRef .tc main_v102) = post (M (Proc.devRef .tc main_v76)) (M (Proc.devRef .tc main_arg10)) (M (Proc.devRef .tc main_arg11))
    ∧ after (((((ops (F := Ideal)).drop 37).drop 33).drop 23).take 33) M (Proc.devRef .tc main_v1) = M (Proc.devRef .tc main_v1)
    ∧ after (((((ops (F := Ideal)).drop 37).drop 33).drop 23).take 33) M (Proc.devRef .tc main_v3) = M (Proc.devRef .tc main_v3)
    ∧ after (((((ops (F := Ideal)).drop 37).drop 33).drop 23).take 33) M (Proc.devRef .tc main_v10) = M (Proc.devRef .tc main_v10)
    ∧ after (((((ops (F := Ideal)).drop 37).drop 33).drop 23).take 33) M (Proc.devRef .tc main_arg12) = M (Proc.devRef .tc main_arg12)
    ∧ after (((((ops (F := Ideal)).drop 37).drop 33).drop 23).take 33) M (Proc.devRef .tc main_arg13) = M (Proc.devRef .tc main_arg13)
    ∧ after (((((ops (F := Ideal)).drop 37).drop 33).drop 23).take 33) M (Proc.devRef .tc main_arg14) = M (Proc.devRef .tc main_arg14)
    ∧ after (((((ops (F := Ideal)).drop 37).drop 33).drop 23).take 33) M (Proc.devRef .tc main_arg15) = M (Proc.devRef .tc main_arg15)
    ∧ after (((((ops (F := Ideal)).drop 37).drop 33).drop 23).take 33) M (Proc.devRef .tc main_arg16) = M (Proc.devRef .tc main_arg16) := by
  simp only [ops, List.take_succ_cons, List.take_zero, List.drop_succ_cons, List.drop_zero]
  refine ⟨?_, ?_, ?_, ?_, ?_, ?_, ?_, ?_, ?_⟩ <;> (after_results_simp <;> rfl)

set_option maxHeartbeats 4000000 in
/-- The next 23: the third aggregation and linear map. -/
theorem stage5 (M : Valuation τ sig (Elt Ideal)) :
    after ((((((ops (F := Ideal)).drop 37).drop 33).drop 23).drop 33).take 23) M (Proc.devRef .tc main_v122) = lin256 (Cert.KernelIdeal.Val.agg256 (M (Proc.devRef .tc main_v102)) (M (Proc.devRef .tc main_v1)) (M (Proc.devRef .tc main_v3)) (M (Proc.devRef .tc main_v10))) (M (Proc.devRef .tc main_v102)) (M (Proc.devRef .tc main_arg12)) (M (Proc.devRef .tc main_arg13)) (M (Proc.devRef .tc main_arg14))
    ∧ after ((((((ops (F := Ideal)).drop 37).drop 33).drop 23).drop 33).take 23) M (Proc.devRef .tc main_arg15) = M (Proc.devRef .tc main_arg15)
    ∧ after ((((((ops (F := Ideal)).drop 37).drop 33).drop 23).drop 33).take 23) M (Proc.devRef .tc main_arg16) = M (Proc.devRef .tc main_arg16) := by
  simp only [ops, List.take_succ_cons, List.take_zero, List.drop_succ_cons, List.drop_zero]
  refine ⟨?_, ?_, ?_⟩ <;> (after_results_simp <;> rfl)

set_option maxHeartbeats 4000000 in
/-- The last 30: the third layer's statistics and normalisation. -/
theorem stage6 (M : Valuation τ sig (Elt Ideal)) :
    after ((((((ops (F := Ideal)).drop 37).drop 33).drop 23).drop 33).drop 23) M (Proc.devRef .tc main_v147) = postLast (M (Proc.devRef .tc main_v122)) (M (Proc.devRef .tc main_arg15)) (M (Proc.devRef .tc main_arg16)) := by
  simp only [ops, List.take_succ_cons, List.take_zero, List.drop_succ_cons, List.drop_zero]
  after_results_simp <;> rfl

/-! ## Composed -/

variable (m : (ℓ : Loc nD τ sig) → Buf (Elt Ideal) ℓ)

/-- THE REFERENCE'S RESULT after its 179 operations: its three layers of the arguments as launched. -/
theorem value (c : Dev nD) :
    after (ops (F := Ideal)) (launchContents m c) (Proc.devRef .tc main_v147)
      = layerLast (layerMid (layer0 (m ((c.tc : Thread nD τ).loc main_arg0)) (srcOf (m ((c.tc : Thread nD τ).loc main_arg1))) (dstOf (m ((c.tc : Thread nD τ).loc main_arg1))) (degOf (dstOf (m ((c.tc : Thread nD τ).loc main_arg1)))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (srcOf (m ((c.tc : Thread nD τ).loc main_arg1))) (dstOf (m ((c.tc : Thread nD τ).loc main_arg1))) (degOf (dstOf (m ((c.tc : Thread nD τ).loc main_arg1)))) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (srcOf (m ((c.tc : Thread nD τ).loc main_arg1))) (dstOf (m ((c.tc : Thread nD τ).loc main_arg1))) (degOf (dstOf (m ((c.tc : Thread nD τ).loc main_arg1)))) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  rw [after_split 37 (ops (F := Ideal)),
    after_split 33 ((ops (F := Ideal)).drop 37),
    after_split 23 (((ops (F := Ideal)).drop 37).drop 33),
    after_split 33 ((((ops (F := Ideal)).drop 37).drop 33).drop 23),
    after_split 23 (((((ops (F := Ideal)).drop 37).drop 33).drop 23).drop 33)]
  rw [stage6 _]
  rw [(stage5 _).1, (stage5 _).2.1, (stage5 _).2.2]
  rw [(stage4 _).1, (stage4 _).2.1, (stage4 _).2.2.1, (stage4 _).2.2.2.1, (stage4 _).2.2.2.2.1, (stage4 _).2.2.2.2.2.1, (stage4 _).2.2.2.2.2.2.1, (stage4 _).2.2.2.2.2.2.2.1, (stage4 _).2.2.2.2.2.2.2.2]
  rw [(stage3 _).1, (stage3 _).2.1, (stage3 _).2.2.1, (stage3 _).2.2.2.1, (stage3 _).2.2.2.2.1, (stage3 _).2.2.2.2.2.1, (stage3 _).2.2.2.2.2.2.1, (stage3 _).2.2.2.2.2.2.2.1, (stage3 _).2.2.2.2.2.2.2.2.1, (stage3 _).2.2.2.2.2.2.2.2.2.1, (stage3 _).2.2.2.2.2.2.2.2.2.2]
  rw [(stage2 _).1, (stage2 _).2.1, (stage2 _).2.2.1, (stage2 _).2.2.2.1, (stage2 _).2.2.2.2.1, (stage2 _).2.2.2.2.2.1, (stage2 _).2.2.2.2.2.2.1, (stage2 _).2.2.2.2.2.2.2.1, (stage2 _).2.2.2.2.2.2.2.2.1, (stage2 _).2.2.2.2.2.2.2.2.2.1, (stage2 _).2.2.2.2.2.2.2.2.2.2.1, (stage2 _).2.2.2.2.2.2.2.2.2.2.2.1, (stage2 _).2.2.2.2.2.2.2.2.2.2.2.2.1, (stage2 _).2.2.2.2.2.2.2.2.2.2.2.2.2]
  rw [(stage1 _).1, (stage1 _).2.1, (stage1 _).2.2.1, (stage1 _).2.2.2.1, (stage1 _).2.2.2.2.1, (stage1 _).2.2.2.2.2.1, (stage1 _).2.2.2.2.2.2.1, (stage1 _).2.2.2.2.2.2.2.1, (stage1 _).2.2.2.2.2.2.2.2.1, (stage1 _).2.2.2.2.2.2.2.2.2.1, (stage1 _).2.2.2.2.2.2.2.2.2.2.1, (stage1 _).2.2.2.2.2.2.2.2.2.2.2.1, (stage1 _).2.2.2.2.2.2.2.2.2.2.2.2.1, (stage1 _).2.2.2.2.2.2.2.2.2.2.2.2.2.1, (stage1 _).2.2.2.2.2.2.2.2.2.2.2.2.2.2.1, (stage1 _).2.2.2.2.2.2.2.2.2.2.2.2.2.2.2]
  rfl

/-! ## The arguments: no operation writes one -/

theorem kept0 (c : Dev nD) : after (ops (F := Ideal)) (launchContents m c) (Proc.devRef .tc main_arg0) = m ((c.tc : Thread nD τ).loc main_arg0) := by
  dsimp only [ops]; after_results_simp <;> rfl
theorem kept1 (c : Dev nD) : after (ops (F := Ideal)) (launchContents m c) (Proc.devRef .tc main_arg1) = m ((c.tc : Thread nD τ).loc main_arg1) := by
  dsimp only [ops]; after_results_simp <;> rfl
theorem kept2 (c : Dev nD) : after (ops (F := Ideal)) (launchContents m c) (Proc.devRef .tc main_arg2) = m ((c.tc : Thread nD τ).loc main_arg2) := by
  dsimp only [ops]; after_results_simp <;> rfl
theorem kept3 (c : Dev nD) : after (ops (F := Ideal)) (launchContents m c) (Proc.devRef .tc main_arg3) = m ((c.tc : Thread nD τ).loc main_arg3) := by
  dsimp only [ops]; after_results_simp <;> rfl
theorem kept4 (c : Dev nD) : after (ops (F := Ideal)) (launchContents m c) (Proc.devRef .tc main_arg4) = m ((c.tc : Thread nD τ).loc main_arg4) := by
  dsimp only [ops]; after_results_simp <;> rfl
theorem kept5 (c : Dev nD) : after (ops (F := Ideal)) (launchContents m c) (Proc.devRef .tc main_arg5) = m ((c.tc : Thread nD τ).loc main_arg5) := by
  dsimp only [ops]; after_results_simp <;> rfl
theorem kept6 (c : Dev nD) : after (ops (F := Ideal)) (launchContents m c) (Proc.devRef .tc main_arg6) = m ((c.tc : Thread nD τ).loc main_arg6) := by
  dsimp only [ops]; after_results_simp <;> rfl
theorem kept7 (c : Dev nD) : after (ops (F := Ideal)) (launchContents m c) (Proc.devRef .tc main_arg7) = m ((c.tc : Thread nD τ).loc main_arg7) := by
  dsimp only [ops]; after_results_simp <;> rfl
theorem kept8 (c : Dev nD) : after (ops (F := Ideal)) (launchContents m c) (Proc.devRef .tc main_arg8) = m ((c.tc : Thread nD τ).loc main_arg8) := by
  dsimp only [ops]; after_results_simp <;> rfl
theorem kept9 (c : Dev nD) : after (ops (F := Ideal)) (launchContents m c) (Proc.devRef .tc main_arg9) = m ((c.tc : Thread nD τ).loc main_arg9) := by
  dsimp only [ops]; after_results_simp <;> rfl
theorem kept10 (c : Dev nD) : after (ops (F := Ideal)) (launchContents m c) (Proc.devRef .tc main_arg10) = m ((c.tc : Thread nD τ).loc main_arg10) := by
  dsimp only [ops]; after_results_simp <;> rfl
theorem kept11 (c : Dev nD) : after (ops (F := Ideal)) (launchContents m c) (Proc.devRef .tc main_arg11) = m ((c.tc : Thread nD τ).loc main_arg11) := by
  dsimp only [ops]; after_results_simp <;> rfl
theorem kept12 (c : Dev nD) : after (ops (F := Ideal)) (launchContents m c) (Proc.devRef .tc main_arg12) = m ((c.tc : Thread nD τ).loc main_arg12) := by
  dsimp only [ops]; after_results_simp <;> rfl
theorem kept13 (c : Dev nD) : after (ops (F := Ideal)) (launchContents m c) (Proc.devRef .tc main_arg13) = m ((c.tc : Thread nD τ).loc main_arg13) := by
  dsimp only [ops]; after_results_simp <;> rfl
theorem kept14 (c : Dev nD) : after (ops (F := Ideal)) (launchContents m c) (Proc.devRef .tc main_arg14) = m ((c.tc : Thread nD τ).loc main_arg14) := by
  dsimp only [ops]; after_results_simp <;> rfl
theorem kept15 (c : Dev nD) : after (ops (F := Ideal)) (launchContents m c) (Proc.devRef .tc main_arg15) = m ((c.tc : Thread nD τ).loc main_arg15) := by
  dsimp only [ops]; after_results_simp <;> rfl
theorem kept16 (c : Dev nD) : after (ops (F := Ideal)) (launchContents m c) (Proc.devRef .tc main_arg16) = m ((c.tc : Thread nD τ).loc main_arg16) := by
  dsimp only [ops]; after_results_simp <;> rfl

end Cert.ReferenceIdeal.RefVal

end
-- ==== Proof.RefBridge.lean ====
/-
  The reference's stages are the specification's functions, index by index, over the extended reals.

  * A length-256 vector broadcast down the rows, at (r, q), is the vector at q; the same vector reshaped to a [1, 256]
    row, at (0, q), is the vector at q.
  * The reference's whole product at (r, q) is the sum over the contracted columns; so its linear map
    (a·Wlᵀ + bl) + x·Wrᵀ is the specification's (a·Wlᵀ + x·Wrᵀ) + bl — addition of extended reals is commutative and
    associative (no finiteness is needed) — with the SAME transposed weight matrices.
  * Its normalisation is the specification's entry by entry (the same five operations, the same ε, the reciprocal root
    one function on both sides), and its relu the maximum with zero.
  Hence each reference layer is the corresponding layer of the network, and the three composed are `net`.
-/
import proofs.«113280_j64192581206427_1_alg».proof.Proof.Gen.ReferenceIdeal
import proofs.«113280_j64192581206427_1_alg».proof.Proof.RefFns
import proofs.«113280_j64192581206427_1_alg».proof.Proof.Spec
import proofs.«113280_j64192581206427_1_alg».proof.Proof.KChain
import Idealize.ShloMosaic.Lib.ValueIdx
import Idealize.ShloMosaic.Lib.Pipeline.Value
import Idealize.ShloMosaic.PureOps.Ideal.Laws

noncomputable section

namespace Cert.ReferenceIdeal.RefVal

open Cert.ReferenceIdeal Idealize.ShloMosaic Idealize.ShloMosaic.TcCoe Idealize.SL.Sem Idealize.ShloMosaic.ValueIdx
open Cert.KernelIdeal.Val (Arr)

open Cert.ReferenceIdeal.Facts₀ Cert.ReferenceIdeal.Facts

/-! ## Rows and columns -/

theorem down_apply (v : Arr Ideal S256 .f32) (i : S50000x256.Idx) :
    down v i = v (ix1 ⟨(i 1).val, idx2_lt1 i⟩) := by
  unfold down
  refine (broadcastInDim_apply _ _ _ i (ix2 0 ⟨(i 1).val, idx2_lt1 i⟩) (fun a => by
    match a with
    | ⟨0, _⟩ => rfl
    | ⟨1, _⟩ => rfl)).trans ?_
  exact broadcastInDim_apply _ _ v (ix2 0 ⟨(i 1).val, idx2_lt1 i⟩) (ix1 ⟨(i 1).val, idx2_lt1 i⟩) (fun a => by
    match a with
    | ⟨0, _⟩ => rfl)

theorem asRow_apply (v : Arr Ideal S256 .f32) (q : Fin 256) : Cert.KernelIdeal.Val.asRow v (ix2 0 q) = v (ix1 q) := by
  unfold Cert.KernelIdeal.Val.asRow
  refine (shapeCast_addUnit_apply ![256] v _ (ix2 0 q)).trans (congrArg v (funext fun a => ?_))
  match a with
  | ⟨0, _⟩ => rfl

/-! ## The products -/

theorem dot128_l0 (i : S50000x256.Idx) (q : (dot_S50000x128_S128x256_S50000x256_1_0_0_1_n_n).contr.Idx) : ((dot_S50000x128_S128x256_S50000x256_1_0_0_1_n_n).lhsIdx i q 0).val = (i 0).val := by
  unfold DotDims.lhsIdx
  rw [dif_neg (show ¬(0 : Fin S50000x128.rank) ∈ (dot_S50000x128_S128x256_S50000x256_1_0_0_1_n_n).lhsBatch by decide), dif_pos (show (0 : Fin S50000x128.rank) ∈ (dot_S50000x128_S128x256_S50000x256_1_0_0_1_n_n).lhsNonContracting by decide)]
  rfl
theorem dot128_l1 (i : S50000x256.Idx) (q : (dot_S50000x128_S128x256_S50000x256_1_0_0_1_n_n).contr.Idx) : ((dot_S50000x128_S128x256_S50000x256_1_0_0_1_n_n).lhsIdx i q 1).val = (q ⟨0, by decide⟩).val :=
  (dot_S50000x128_S128x256_S50000x256_1_0_0_1_n_n).lhsIdx_val_of_single rfl i q
theorem dot128_r0 (i : S50000x256.Idx) (q : (dot_S50000x128_S128x256_S50000x256_1_0_0_1_n_n).contr.Idx) : ((dot_S50000x128_S128x256_S50000x256_1_0_0_1_n_n).rhsIdx i q 0).val = (q ⟨0, by decide⟩).val :=
  (dot_S50000x128_S128x256_S50000x256_1_0_0_1_n_n).rhsIdx_val_of_single rfl i q
theorem dot128_r1 (i : S50000x256.Idx) (q : (dot_S50000x128_S128x256_S50000x256_1_0_0_1_n_n).contr.Idx) : ((dot_S50000x128_S128x256_S50000x256_1_0_0_1_n_n).rhsIdx i q 1).val = (i 1).val := by
  unfold DotDims.rhsIdx
  rw [dif_neg (show ¬(1 : Fin S128x256.rank) ∈ (dot_S50000x128_S128x256_S50000x256_1_0_0_1_n_n).rhsBatch by decide), dif_pos (show (1 : Fin S128x256.rank) ∈ (dot_S50000x128_S128x256_S50000x256_1_0_0_1_n_n).rhsNonContracting by decide)]
  rfl

/-- The reference's whole [50000, 128] × [128, 256] product at (r, q): the sum over the 128 contracted columns. -/
theorem dot128_apply (l : FVec Ideal S50000x128 .f32) (r : FVec Ideal S128x256 .f32) (i : S50000x256.Idx) :
    Host.dotGeneral (F := Ideal) (φ₁ := .f32) (φ₂ := .f32) dot_S50000x128_S128x256_S50000x256_1_0_0_1_n_n none l r i
      = ∑ k : Fin 128, l (ix2 ⟨(i 0).val, idx2_lt0 i⟩ k) * r (ix2 k ⟨(i 1).val, idx2_lt1 i⟩) := by
  simp only [Host.dotGeneral]
  rw [Ideal.dotGeneral_apply, ← Equiv.sum_comp (ValueIdx.contrEquiv1 dot_S50000x128_S128x256_S50000x256_1_0_0_1_n_n 128 rfl rfl).symm]
  refine Finset.sum_congr rfl fun k _ => ?_
  have hk := ValueIdx.contrEquiv1_symm_val dot_S50000x128_S128x256_S50000x256_1_0_0_1_n_n 128 rfl rfl k
  have el : (dot_S50000x128_S128x256_S50000x256_1_0_0_1_n_n).lhsIdx i ((ValueIdx.contrEquiv1 dot_S50000x128_S128x256_S50000x256_1_0_0_1_n_n 128 rfl rfl).symm k) = ix2 ⟨(i 0).val, idx2_lt0 i⟩ k := funext fun a => Fin.ext (by
    match a with
    | ⟨0, _⟩ => exact dot128_l0 _ _
    | ⟨1, _⟩ => exact (dot128_l1 _ _).trans hk)
  have er : (dot_S50000x128_S128x256_S50000x256_1_0_0_1_n_n).rhsIdx i ((ValueIdx.contrEquiv1 dot_S50000x128_S128x256_S50000x256_1_0_0_1_n_n 128 rfl rfl).symm k) = ix2 k ⟨(i 1).val, idx2_lt1 i⟩ := funext fun a => Fin.ext (by
    match a with
    | ⟨0, _⟩ => exact (dot128_r0 _ _).trans hk
    | ⟨1, _⟩ => exact dot128_r1 _ _)
  rw [el, er]

theorem dot256_l0 (i : S50000x256.Idx) (q : (dot_S50000x256_S256x256_S50000x256_1_0_0_1_n_n).contr.Idx) : ((dot_S50000x256_S256x256_S50000x256_1_0_0_1_n_n).lhsIdx i q 0).val = (i 0).val := by
  unfold DotDims.lhsIdx
  rw [dif_neg (show ¬(0 : Fin S50000x256.rank) ∈ (dot_S50000x256_S256x256_S50000x256_1_0_0_1_n_n).lhsBatch by decide), dif_pos (show (0 : Fin S50000x256.rank) ∈ (dot_S50000x256_S256x256_S50000x256_1_0_0_1_n_n).lhsNonContracting by decide)]
  rfl
theorem dot256_l1 (i : S50000x256.Idx) (q : (dot_S50000x256_S256x256_S50000x256_1_0_0_1_n_n).contr.Idx) : ((dot_S50000x256_S256x256_S50000x256_1_0_0_1_n_n).lhsIdx i q 1).val = (q ⟨0, by decide⟩).val :=
  (dot_S50000x256_S256x256_S50000x256_1_0_0_1_n_n).lhsIdx_val_of_single rfl i q
theorem dot256_r0 (i : S50000x256.Idx) (q : (dot_S50000x256_S256x256_S50000x256_1_0_0_1_n_n).contr.Idx) : ((dot_S50000x256_S256x256_S50000x256_1_0_0_1_n_n).rhsIdx i q 0).val = (q ⟨0, by decide⟩).val :=
  (dot_S50000x256_S256x256_S50000x256_1_0_0_1_n_n).rhsIdx_val_of_single rfl i q
theorem dot256_r1 (i : S50000x256.Idx) (q : (dot_S50000x256_S256x256_S50000x256_1_0_0_1_n_n).contr.Idx) : ((dot_S50000x256_S256x256_S50000x256_1_0_0_1_n_n).rhsIdx i q 1).val = (i 1).val := by
  unfold DotDims.rhsIdx
  rw [dif_neg (show ¬(1 : Fin S256x256.rank) ∈ (dot_S50000x256_S256x256_S50000x256_1_0_0_1_n_n).rhsBatch by decide), dif_pos (show (1 : Fin S256x256.rank) ∈ (dot_S50000x256_S256x256_S50000x256_1_0_0_1_n_n).rhsNonContracting by decide)]
  rfl

/-- The reference's whole [50000, 256] × [256, 256] product at (r, q): the sum over the 256 contracted columns. -/
theorem dot256_apply (l : FVec Ideal S50000x256 .f32) (r : FVec Ideal S256x256 .f32) (i : S50000x256.Idx) :
    Host.dotGeneral (F := Ideal) (φ₁ := .f32) (φ₂ := .f32) dot_S50000x256_S256x256_S50000x256_1_0_0_1_n_n none l r i
      = ∑ k : Fin 256, l (ix2 ⟨(i 0).val, idx2_lt0 i⟩ k) * r (ix2 k ⟨(i 1).val, idx2_lt1 i⟩) := by
  simp only [Host.dotGeneral]
  rw [Ideal.dotGeneral_apply, ← Equiv.sum_comp (ValueIdx.contrEquiv1 dot_S50000x256_S256x256_S50000x256_1_0_0_1_n_n 256 rfl rfl).symm]
  refine Finset.sum_congr rfl fun k _ => ?_
  have hk := ValueIdx.contrEquiv1_symm_val dot_S50000x256_S256x256_S50000x256_1_0_0_1_n_n 256 rfl rfl k
  have el : (dot_S50000x256_S256x256_S50000x256_1_0_0_1_n_n).lhsIdx i ((ValueIdx.contrEquiv1 dot_S50000x256_S256x256_S50000x256_1_0_0_1_n_n 256 rfl rfl).symm k) = ix2 ⟨(i 0).val, idx2_lt0 i⟩ k := funext fun a => Fin.ext (by
    match a with
    | ⟨0, _⟩ => exact dot256_l0 _ _
    | ⟨1, _⟩ => exact (dot256_l1 _ _).trans hk)
  have er : (dot_S50000x256_S256x256_S50000x256_1_0_0_1_n_n).rhsIdx i ((ValueIdx.contrEquiv1 dot_S50000x256_S256x256_S50000x256_1_0_0_1_n_n 256 rfl rfl).symm k) = ix2 k ⟨(i 1).val, idx2_lt1 i⟩ := funext fun a => Fin.ext (by
    match a with
    | ⟨0, _⟩ => exact (dot256_r0 _ _).trans hk
    | ⟨1, _⟩ => exact dot256_r1 _ _)
  rw [el, er]

/-! ## The linear maps -/

theorem lin128_eq (a x : Arr Ideal S50000x128 .f32) (wl : Arr Ideal S256x128 .f32) (bl : Arr Ideal S256 .f32) (wr : Arr Ideal S256x128 .f32) :
    lin128 a x wl bl wr = Spec.lin a x (Cert.KernelIdeal.Val.tr128 wl) (Cert.KernelIdeal.Val.tr128 wr) (Cert.KernelIdeal.Val.asRow bl) := by
  funext i
  show (Host.dotGeneral (F := Ideal) (φ₁ := .f32) (φ₂ := .f32) dot_S50000x128_S128x256_S50000x256_1_0_0_1_n_n none a _ i + down bl i)
      + Host.dotGeneral (F := Ideal) (φ₁ := .f32) (φ₂ := .f32) dot_S50000x128_S128x256_S50000x256_1_0_0_1_n_n none x _ i = Spec.lin1 a x _ _ _ ⟨(i 0).val, idx2_lt0 i⟩ ⟨(i 1).val, idx2_lt1 i⟩
  rw [dot128_apply, dot128_apply, down_apply]
  unfold Spec.lin1
  rw [asRow_apply]
  exact add_right_comm _ _ _

theorem lin256_eq (a x : Arr Ideal S50000x256 .f32) (wl : Arr Ideal S256x256 .f32) (bl : Arr Ideal S256 .f32) (wr : Arr Ideal S256x256 .f32) :
    lin256 a x wl bl wr = Spec.lin a x (Cert.KernelIdeal.Val.tr256 wl) (Cert.KernelIdeal.Val.tr256 wr) (Cert.KernelIdeal.Val.asRow bl) := by
  funext i
  show (Host.dotGeneral (F := Ideal) (φ₁ := .f32) (φ₂ := .f32) dot_S50000x256_S256x256_S50000x256_1_0_0_1_n_n none a _ i + down bl i)
      + Host.dotGeneral (F := Ideal) (φ₁ := .f32) (φ₂ := .f32) dot_S50000x256_S256x256_S50000x256_1_0_0_1_n_n none x _ i = Spec.lin1 a x _ _ _ ⟨(i 0).val, idx2_lt0 i⟩ ⟨(i 1).val, idx2_lt1 i⟩
  rw [dot256_apply, dot256_apply, down_apply]
  unfold Spec.lin1
  rw [asRow_apply]
  exact add_right_comm _ _ _

/-! ## The normalisation -/

theorem normalize_eq (y : Arr Ideal S50000x256 .f32) (mu var g b : Arr Ideal S256 .f32) :
    normalize y mu var g b = Spec.norm y (Cert.KernelIdeal.Val.asRow mu) (Cert.KernelIdeal.Val.asRow var) (Cert.KernelIdeal.Val.asRow g) (Cert.KernelIdeal.Val.asRow b) := by
  funext i
  show ((y i - down mu i) * down (Host.rsqrt (addf var (broadcastInDim S256 ![] bcast_S_S256 (constant (F := Ideal) S_ .f32 0x3727C5AC#32)))) i) * down g i + down b i
      = Spec.norm1 (y i) (Cert.KernelIdeal.Val.asRow mu (ix2 0 ⟨(i 1).val, idx2_lt1 i⟩)) (Cert.KernelIdeal.Val.asRow var (ix2 0 ⟨(i 1).val, idx2_lt1 i⟩))
          (Cert.KernelIdeal.Val.asRow g (ix2 0 ⟨(i 1).val, idx2_lt1 i⟩)) (Cert.KernelIdeal.Val.asRow b (ix2 0 ⟨(i 1).val, idx2_lt1 i⟩))
  rw [down_apply, down_apply, down_apply, down_apply, asRow_apply, asRow_apply, asRow_apply, asRow_apply]
  rfl

theorem normRelu_eq (y : Arr Ideal S50000x256 .f32) (mu var g b : Arr Ideal S256 .f32) :
    relu (normalize y mu var g b) = Spec.normRelu y (Cert.KernelIdeal.Val.asRow mu) (Cert.KernelIdeal.Val.asRow var) (Cert.KernelIdeal.Val.asRow g) (Cert.KernelIdeal.Val.asRow b) := by
  rw [normalize_eq]
  rfl

/-! ## The layers -/

theorem layer0_eq (h : Arr Ideal S50000x128 .f32) (ei : Arr Ideal S2x800000 .i32) (wl : Arr Ideal S256x128 .f32)
    (bl : Arr Ideal S256 .f32) (wr : Arr Ideal S256x128 .f32) (g b : Arr Ideal S256 .f32) :
    layer0 h (Cert.KernelIdeal.Val.srcOf ei) (Cert.KernelIdeal.Val.dstOf ei) (Cert.KernelIdeal.Val.degOf (Cert.KernelIdeal.Val.dstOf ei)) wl bl wr g b = Cert.KernelIdeal.Val.layer0 h ei wl bl wr g b := by
  unfold layer0 post Cert.KernelIdeal.Val.layer0
  simp only [lin128_eq, normRelu_eq]

theorem layerMid_eq (h : Arr Ideal S50000x256 .f32) (ei : Arr Ideal S2x800000 .i32) (wl : Arr Ideal S256x256 .f32)
    (bl : Arr Ideal S256 .f32) (wr : Arr Ideal S256x256 .f32) (g b : Arr Ideal S256 .f32) :
    layerMid h (Cert.KernelIdeal.Val.srcOf ei) (Cert.KernelIdeal.Val.dstOf ei) (Cert.KernelIdeal.Val.degOf (Cert.KernelIdeal.Val.dstOf ei)) wl bl wr g b = Cert.KernelIdeal.Val.layerMid h ei wl bl wr g b := by
  unfold layerMid post Cert.KernelIdeal.Val.layerMid
  simp only [lin256_eq, normRelu_eq]

theorem layerLast_eq (h : Arr Ideal S50000x256 .f32) (ei : Arr Ideal S2x800000 .i32) (wl : Arr Ideal S256x256 .f32)
    (bl : Arr Ideal S256 .f32) (wr : Arr Ideal S256x256 .f32) (g b : Arr Ideal S256 .f32) :
    layerLast h (Cert.KernelIdeal.Val.srcOf ei) (Cert.KernelIdeal.Val.dstOf ei) (Cert.KernelIdeal.Val.degOf (Cert.KernelIdeal.Val.dstOf ei)) wl bl wr g b = Cert.KernelIdeal.Val.layerLast h ei wl bl wr g b := by
  unfold layerLast postLast Cert.KernelIdeal.Val.layerLast
  simp only [lin256_eq, normalize_eq]

/-- The reference's three layers composed are the network. -/
theorem net_eq (x : Arr Ideal S50000x128 .f32) (ei : Arr Ideal S2x800000 .i32)
    (wl0 : Arr Ideal S256x128 .f32) (bl0 : Arr Ideal S256 .f32) (wr0 : Arr Ideal S256x128 .f32) (g0 : Arr Ideal S256 .f32) (b0 : Arr Ideal S256 .f32)
    (wl1 : Arr Ideal S256x256 .f32) (bl1 : Arr Ideal S256 .f32) (wr1 : Arr Ideal S256x256 .f32) (g1 : Arr Ideal S256 .f32) (b1 : Arr Ideal S256 .f32)
    (wl2 : Arr Ideal S256x256 .f32) (bl2 : Arr Ideal S256 .f32) (wr2 : Arr Ideal S256x256 .f32) (g2 : Arr Ideal S256 .f32) (b2 : Arr Ideal S256 .f32) :
    layerLast (layerMid (layer0 x (Cert.KernelIdeal.Val.srcOf ei) (Cert.KernelIdeal.Val.dstOf ei) (Cert.KernelIdeal.Val.degOf (Cert.KernelIdeal.Val.dstOf ei)) wl0 bl0 wr0 g0 b0)
        (Cert.KernelIdeal.Val.srcOf ei) (Cert.KernelIdeal.Val.dstOf ei) (Cert.KernelIdeal.Val.degOf (Cert.KernelIdeal.Val.dstOf ei)) wl1 bl1 wr1 g1 b1)
      (Cert.KernelIdeal.Val.srcOf ei) (Cert.KernelIdeal.Val.dstOf ei) (Cert.KernelIdeal.Val.degOf (Cert.KernelIdeal.Val.dstOf ei)) wl2 bl2 wr2 g2 b2
      = Cert.KernelIdeal.Val.net x ei wl0 bl0 wr0 g0 b0 wl1 bl1 wr1 g1 b1 wl2 bl2 wr2 g2 b2 := by
  rw [layer0_eq, layerMid_eq, layerLast_eq]
  rfl

end Cert.ReferenceIdeal.RefVal

end
-- ==== Proof.lean ====
/-
  The certificate: a three-layer graph network (neighbour-mean aggregation, a linear map, normalisation over the
  nodes, the maximum with zero between layers), computed by a kernel program that launches the linear maps and the
  normalisations as six pipelined regions, against a reference that computes everything with host operations.

  Over the extended reals both programs end with the same array, `Val.net` of the seventeen arguments:
  * the kernel's run ends with its result at the last boundary's contents (KRun), which the chain of boundaries reads
    as `net` (KChain over the six region modules);
  * the reference's 179 operations end with its three layers of the arguments (RefRun), each of which is the network's
    layer (RefBridge: its linear map differs from the kernel's only in the order of a sum of three terms).
  The aggregation and the column statistics are the same host stages on both sides and are never opened; nothing here
  needs the inputs to be finite.  The three frame claims are the runs with the result forgotten; no operation was
  rewritten by the idealization, so `preserves` is trivial.
-/
import proofs.«113280_j64192581206427_1_alg».proof.Defs
import proofs.«113280_j64192581206427_1_alg».proof.Proof.Gen.Kernel
import proofs.«113280_j64192581206427_1_alg».proof.Proof.Gen.Kernel.Skeleton
import proofs.«113280_j64192581206427_1_alg».proof.Proof.Gen.Kernel.Launch
import proofs.«113280_j64192581206427_1_alg».proof.Proof.Gen.Kernel.Points
import proofs.«113280_j64192581206427_1_alg».proof.Proof.Gen.Kernel.Frame
import proofs.«113280_j64192581206427_1_alg».proof.Proof.Gen.KernelIdeal
import proofs.«113280_j64192581206427_1_alg».proof.Proof.Gen.KernelIdeal.Skeleton
import proofs.«113280_j64192581206427_1_alg».proof.Proof.Gen.KernelIdeal.Launch
import proofs.«113280_j64192581206427_1_alg».proof.Proof.Gen.KernelIdeal.Points
import proofs.«113280_j64192581206427_1_alg».proof.Proof.Gen.KernelIdeal.Frame
import proofs.«113280_j64192581206427_1_alg».proof.Proof.Gen.ReferenceIdeal
import proofs.«113280_j64192581206427_1_alg».proof.Proof.Gen.Pre_finite_inputs
import proofs.«113280_j64192581206427_1_alg».proof.Proof.KRun
import proofs.«113280_j64192581206427_1_alg».proof.Proof.KChain
import proofs.«113280_j64192581206427_1_alg».proof.Proof.RefOps
import proofs.«113280_j64192581206427_1_alg».proof.Proof.RefRun
import proofs.«113280_j64192581206427_1_alg».proof.Proof.RefBridge
import Idealize.ShloMosaic.Adequacy
import Idealize.ShloMosaic.Init

noncomputable section

namespace Cert.Proof

open Idealize.ShloMosaic Idealize.ShloMosaic.TcCoe Idealize.SL.Sem Idealize.ShloMosaic.StableHlo

/-- The reference's run: it terminates with its result at the network of its arguments, which it leaves unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v147)
        = Cert.KernelIdeal.Val.net (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)) :=
  (θ_run (Cert.ReferenceIdeal.defs (F := Ideal)) _ _).mono (fun _ h c =>
    ⟨(h c Cert.ReferenceIdeal.main_v147).trans ((Cert.ReferenceIdeal.RefVal.value m c).trans (Cert.ReferenceIdeal.RefVal.net_eq _ _ _ _ _ _ _ _ _ _ _ _ _ _ _ _ _)),
     (h c Cert.ReferenceIdeal.main_arg0).trans (Cert.ReferenceIdeal.RefVal.kept0 m c),
     (h c Cert.ReferenceIdeal.main_arg1).trans (Cert.ReferenceIdeal.RefVal.kept1 m c),
     (h c Cert.ReferenceIdeal.main_arg2).trans (Cert.ReferenceIdeal.RefVal.kept2 m c),
     (h c Cert.ReferenceIdeal.main_arg3).trans (Cert.ReferenceIdeal.RefVal.kept3 m c),
     (h c Cert.ReferenceIdeal.main_arg4).trans (Cert.ReferenceIdeal.RefVal.kept4 m c),
     (h c Cert.ReferenceIdeal.main_arg5).trans (Cert.ReferenceIdeal.RefVal.kept5 m c),
     (h c Cert.ReferenceIdeal.main_arg6).trans (Cert.ReferenceIdeal.RefVal.kept6 m c),
     (h c Cert.ReferenceIdeal.main_arg7).trans (Cert.ReferenceIdeal.RefVal.kept7 m c),
     (h c Cert.ReferenceIdeal.main_arg8).trans (Cert.ReferenceIdeal.RefVal.kept8 m c),
     (h c Cert.ReferenceIdeal.main_arg9).trans (Cert.ReferenceIdeal.RefVal.kept9 m c),
     (h c Cert.ReferenceIdeal.main_arg10).trans (Cert.ReferenceIdeal.RefVal.kept10 m c),
     (h c Cert.ReferenceIdeal.main_arg11).trans (Cert.ReferenceIdeal.RefVal.kept11 m c),
     (h c Cert.ReferenceIdeal.main_arg12).trans (Cert.ReferenceIdeal.RefVal.kept12 m c),
     (h c Cert.ReferenceIdeal.main_arg13).trans (Cert.ReferenceIdeal.RefVal.kept13 m c),
     (h c Cert.ReferenceIdeal.main_arg14).trans (Cert.ReferenceIdeal.RefVal.kept14 m c),
     (h c Cert.ReferenceIdeal.main_arg15).trans (Cert.ReferenceIdeal.RefVal.kept15 m c),
     (h c Cert.ReferenceIdeal.main_arg16).trans (Cert.ReferenceIdeal.RefVal.kept16 m c)⟩)
    (run_seq Cert.ReferenceIdeal.Value.scopedRefs_eq Cert.ReferenceIdeal.Value.scopedSems_eq Cert.ReferenceIdeal.defs Cert.ReferenceIdeal.main (fun _ => Cert.ReferenceIdeal.Value.ops) Cert.ReferenceIdeal.Value.main_eq (fun _ => Cert.ReferenceIdeal.Value.ops_sub) m ρ)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run (Cert.ReferenceIdeal.defs (F := Ideal)) _ _).mono (fun _ h c => (h c).2) (ref_run m ρ)

/-- The idealization rewrote no operation. -/
theorem preserves : Cert.preserves_Kernel_KernelIdeal := trivial

/-- Both idealized programs, run from memories agreeing on the arguments, end with the network of those arguments. -/
theorem algebraic : Cert.algebraic_KernelIdeal_ReferenceIdeal := by
  intro m ρ m' ρ' _ hagree
  refine ⟨fun c => Cert.KernelIdeal.Val.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run (Cert.KernelIdeal.defs (F := Ideal)) _ _).mono (fun r h c => ⟨(h c).1.trans (Cert.KernelIdeal.Val.result m ρ c), (h c).2⟩)
      (Cert.KernelIdeal.Val.run_named m ρ)
  · refine (θ_run (Cert.ReferenceIdeal.defs (F := Ideal)) _ _).mono (fun r h c => ⟨(h c).1.trans ?_, (h c).2⟩) (ref_run m' ρ')
    obtain ⟨h0, h1, h2, h3, h4, h5, h6, h7, h8, h9, h10, h11, h12, h13, h14, h15, h16⟩ := hagree c
    rw [h0, h1, h2, h3, h4, h5, h6, h7, h8, h9, h10, h11, h12, h13, h14, h15, h16]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
